-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x12 : Shape := ⟨2, ![1048576, 12]⟩
abbrev S10x12 : Shape := ⟨2, ![10, 12]⟩
abbrev S10 : Shape := ⟨1, ![10]⟩
abbrev S1x10 : Shape := ⟨2, ![1, 10]⟩
abbrev S1 : Shape := ⟨1, ![1]⟩
abbrev S_ : Shape := ⟨0, ![]⟩

class Facts : Prop where
  bcast_S_S1048576x12 : S_.BroadcastsInDim S1048576x12 (![] : Fin 0 → Fin S1048576x12.rank)
  reducesTo_S1048576x12_S_d0_1 : S1048576x12.ReducesTo [0, 1] S_
  h_S_ : 0 < S_.numel
  bcast_S_S10x12 : S_.BroadcastsInDim S10x12 (![] : Fin 0 → Fin S10x12.rank)
  reducesTo_S10x12_S_d0_1 : S10x12.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x10 1) : IVec S_ 1 :=
  let main_c_5 : IVec S_ 1 := constantI S_ 1 1#1
  let main_v17 : IVec S_ 1 := (fun x v => Host.reduce IntOp.andi x v reducesTo_S1x10_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1048576x12 .f32) (main_arg1 : FVec F S10x12 .f32) (main_arg2 : FVec F S10 .f32) (main_arg3 : FVec F S1x10 .f32) (main_arg4 : FVec F S1 .f32) : IVec S_ 1 :=
  let main_v0 : FVec F S1048576x12 .f32 := Host.absf main_arg0
  let main_cst : FVec F S_ .f32 := constant S_ .f32 0x7F800000#32
  let main_v1 : FVec F S1048576x12 .f32 := broadcastInDim S1048576x12 ![] bcast_S_S1048576x12 main_cst
  let main_v2 : IVec S1048576x12 1 := cmpf .olt main_v0 main_v1
  let main_c : IVec S_ 1 := constantI S_ 1 1#1
  let main_v3 : IVec S_ 1 := (fun x v => Host.reduce IntOp.andi x v reducesTo_S1048576x12_S_d0_1 h_S_) main_v2 main_c
  let main_v4 : FVec F S10x12 .f32 := Host.absf main_arg1
  let main_cst_0 : FVec F S_ .f32 := constant S_ .f32 0x7F800000#32
  let main_v5 : FVec F S10x12 .f32 := broadcastInDim S10x12 ![] bcast_S_S10x12 main_cst_0
  let main_v6 : IVec S10x12 1 := cmpf .olt main_v4 main_v5
  let main_c_1 : IVec S_ 1 := constantI S_ 1 1#1
  let main_v7 : IVec S_ 1 := (fun x v => Host.reduce IntOp.andi x v reducesTo_S10x12_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S1x10 .f32 := Host.absf main_arg3
  let main_cst_4 : FVec F S_ .f32 := constant S_ .f32 0x7F800000#32
  let main_v15 : FVec F S1x10 .f32 := broadcastInDim S1x10 ![] bcast_S_S1x10 main_cst_4
  let main_v16 : IVec S1x10 1 := cmpf .olt main_v14 main_v15
  fn_part1 (F := F) main_arg4 main_v13 main_v16
-- ==== Kernel.lean ====
abbrev S1048576x12 : Shape := ⟨2, ![1048576, 12]⟩
abbrev S10x12 : Shape := ⟨2, ![10, 12]⟩
abbrev S10 : Shape := ⟨1, ![10]⟩
abbrev S1x10 : Shape := ⟨2, ![1, 10]⟩
abbrev S1 : Shape := ⟨1, ![1]⟩
abbrev S32x32 : Shape := ⟨2, ![32, 32]⟩
abbrev S_ : Shape := ⟨0, ![]⟩
abbrev S12x10 : Shape := ⟨2, ![12, 10]⟩
abbrev S32x1x32x1 : Shape := ⟨4, ![32, 1, 32, 1]⟩
abbrev S1x12x1x10 : Shape := ⟨4, ![1, 12, 1, 10]⟩
abbrev S32x12x32x10 : Shape := ⟨4, ![32, 12, 32, 10]⟩
abbrev S384x320 : Shape := ⟨2, ![384, 320]⟩
abbrev S10x1 : Shape := ⟨2, ![10, 1]⟩
abbrev S1x10x1x1 : Shape := ⟨4, ![1, 10, 1, 1]⟩
abbrev S32x10x32x1 : Shape := ⟨4, ![32, 10, 32, 1]⟩
abbrev S320x32 : Shape := ⟨2, ![320, 32]⟩
abbrev S1x384 : Shape := ⟨2, ![1, 384]⟩
abbrev S32x10 : Shape := ⟨2, ![32, 10]⟩
abbrev S320 : Shape := ⟨1, ![320]⟩
abbrev S2 : Shape := ⟨1, ![2]⟩
abbrev S32768x384 : Shape := ⟨2, ![32768, 384]⟩
abbrev S32768x32 : Shape := ⟨2, ![32768, 32]⟩
abbrev S1024x384 : Shape := ⟨2, ![1024, 384]⟩
abbrev S1024x32 : Shape := ⟨2, ![1024, 32]⟩
abbrev S1x320 : Shape := ⟨2, ![1, 320]⟩
abbrev S1x1 : Shape := ⟨2, ![1, 1]⟩
abbrev S1024x320 : Shape := ⟨2, ![1024, 320]⟩
abbrev S1048576x1 : Shape := ⟨2, ![1048576, 1]⟩

abbrev nBuf : Space → Nat
  | .hbm => 47
  | .vmem => 7
  | .smem => 0
  | _ => 0

abbrev bufTy : (tb : Table) → Fin (tcTables nBuf tb) → BufTy
  | .hbm, ⟨0, _⟩ => ⟨S1048576x12, .f32⟩
  | .hbm, ⟨1, _⟩ => ⟨S10x12, .f32⟩
  | .hbm, ⟨2, _⟩ => ⟨S10, .f32⟩
  | .hbm, ⟨3, _⟩ => ⟨S1x10, .f32⟩
  | .hbm, ⟨4, _⟩ => ⟨S1, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S12x10, .f32⟩
  | .hbm, ⟨13, _⟩ => ⟨S32x1x32x1, .f32⟩
  | .hbm, ⟨14, _⟩ => ⟨S1x12x1x10, .f32⟩
  | .hbm, ⟨15, _⟩ => ⟨S32x12x32x10, .f32⟩
  | .hbm, ⟨16, _⟩ => ⟨S32x12x32x10, .f32⟩
  | .hbm, ⟨17, _⟩ => ⟨S32x12x32x10, .f32⟩
  | .hbm, ⟨18, _⟩ => ⟨S384x320, .f32⟩
  | .hbm, ⟨19, _⟩ => ⟨S10x1, .f32⟩
  | .hbm, ⟨20, _⟩ => ⟨S32x1x32x1, .f32⟩
  | .hbm, ⟨21, _⟩ => ⟨S1x10x1x1, .f32⟩
  | .hbm, ⟨22, _⟩ => ⟨S32x10x32x1, .f32⟩
  | .hbm, ⟨23, _⟩ => ⟨S32x10x32x1, .f32⟩
  | .hbm, ⟨24, _⟩ => ⟨S32x10x32x1, .f32⟩
  | .hbm, ⟨25, _⟩ => ⟨S320x32, .f32⟩
  | .hbm, ⟨26, _⟩ => ⟨S_, .f32⟩
  | .hbm, ⟨27, _⟩ => ⟨S1x384, .f32⟩
  | .hbm, ⟨28, _⟩ => ⟨S1x10, .f32⟩
  | .hbm, ⟨29, _⟩ => ⟨S32x10, .f32⟩
  | .hbm, ⟨30, _⟩ => ⟨S320, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x384, .f32⟩
  | .hbm, ⟨37, _⟩ => ⟨S_, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x384, .f32⟩
  | .hbm, ⟨44, _⟩ => ⟨S32768x384, .f32⟩
  | .hbm, ⟨45, _⟩ => ⟨S32768x32, .f32⟩
  | .hbm, ⟨46, _⟩ => ⟨S1048576x1, .f32⟩
  | .local _ .vmem, ⟨0, _⟩ => ⟨S1024x384, .f32⟩
  | .local _ .vmem, ⟨1, _⟩ => ⟨S1024x384, .f32⟩
  | .local _ .vmem, ⟨2, _⟩ => ⟨S384x320, .f32⟩
  | .local _ .vmem, ⟨3, _⟩ => ⟨S1x384, .f32⟩
  | .local _ .vmem, ⟨4, _⟩ => ⟨S320x32, .f32⟩
  | .local _ .vmem, ⟨5, _⟩ => ⟨S1024x32, .f32⟩
  | .local _ .vmem, ⟨6, _⟩ => ⟨S1024x32, .f32⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x32 : S_.BroadcastsInDim S32x32 (![] : Fin 0 → Fin S32x32.rank)
  transposes_S10x12_S12x10_1_0 : S10x12.Transposes [1, 0] S12x10
  bcast_S32x32_S32x1x32x1_0_2 : S32x32.BroadcastsInDim S32x1x32x1 (![0, 2] : Fin 2 → Fin S32x1x32x1.rank)
  bcast_S12x10_S1x12x1x10_1_3 : S12x10.BroadcastsInDim S1x12x1x10 (![1, 3] : Fin 2 → Fin S1x12x1x10.rank)
  bcast_S32x1x32x1_S32x12x32x10_0_1_2_3 : S32x1x32x1.BroadcastsInDim S32x12x32x10 (![0, 1, 2, 3] : Fin 4 → Fin S32x12x32x10.rank)
  bcast_S1x12x1x10_S32x12x32x10_0_1_2_3 : S1x12x1x10.BroadcastsInDim S32x12x32x10 (![0, 1, 2, 3] : Fin 4 → Fin S32x12x32x10.rank)
  shapeCasts_S32x12x32x10_S384x320 : S32x12x32x10.ShapeCasts S384x320
  shapeCasts_S1x10_S10x1 : S1x10.ShapeCasts S10x1
  bcast_S10x1_S1x10x1x1_1_3 : S10x1.BroadcastsInDim S1x10x1x1 (![1, 3] : Fin 2 → Fin S1x10x1x1.rank)
  bcast_S32x1x32x1_S32x10x32x1_0_1_2_3 : S32x1x32x1.BroadcastsInDim S32x10x32x1 (![0, 1, 2, 3] : Fin 4 → Fin S32x10x32x1.rank)
  bcast_S1x10x1x1_S32x10x32x1_0_1_2_3 : S1x10x1x1.BroadcastsInDim S32x10x32x1 (![0, 1, 2, 3] : Fin 4 → Fin S32x10x32x1.rank)
  shapeCasts_S32x10x32x1_S320x32 : S32x10x32x1.ShapeCasts S320x32
  bcast_S_S1x384 : S_.BroadcastsInDim S1x384 (![] : Fin 0 → Fin S1x384.rank)
  shapeCasts_S10_S1x10 : S10.ShapeCasts S1x10
  bcast_S1x10_S32x10_0_1 : S1x10.BroadcastsInDim S32x10 (![0, 1] : Fin 2 → Fin S32x10.rank)
  shapeCasts_S32x10_S320 : S32x10.ShapeCasts S320
  bcast_S_S1 : S_.BroadcastsInDim S1 (![] : Fin 0 → Fin S1.rank)
  concatenates_S1_S1_S2_d0 : Shape.Concatenates [S1, S1] S2 0
  shapeCasts_S1_S_ : S1.ShapeCasts S_
  shapeCasts_S1048576x12_S32768x384 : S1048576x12.ShapeCasts S32768x384
  inb_S1x384_S1x320_0_0 : ∀ a, (![0, 0] : Fin 2 → Nat) a + S1x320.size a ≤ S1x384.size a
  h_S1x320 : 0 < S1x320.numel
  shapeCasts_S1x320_S1x320 : S1x320.ShapeCasts S1x320
  inb_S1x384_S1x1_0_320 : ∀ a, (![0, 320] : Fin 2 → Nat) a + S1x1.size a ≤ S1x384.size a
  h_S1x1 : 0 < S1x1.numel
  shapeCasts_S1x1_S1x1 : S1x1.ShapeCasts S1x1
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384x320_S384x320_0_0 : ∀ a, (![0, 0] : Fin 2 → Nat) a + S384x320.size a ≤ S384x320.size a
  h_S384x320 : 0 < S384x320.numel
  shapeCasts_S384x320_S384x320 : S384x320.ShapeCasts S384x320
  broadcasts_S1x320_S1024x320 : S1x320.Broadcasts S1024x320
  inb_S320x32_S320x32_0_0 : ∀ a, (![0, 0] : Fin 2 → Nat) a + S320x32.size a ≤ S320x32.size a
  h_S320x32 : 0 < S320x32.numel
  shapeCasts_S320x32_S320x32 : S320x32.ShapeCasts S320x32
  broadcasts_S1x1_S1024x32 : S1x1.Broadcasts S1024x32
  inb_S1024x32_S1024x32_0_0 : ∀ a, (![0, 0] : Fin 2 → Nat) a + S1024x32.size a ≤ S1024x32.size a
  h_S1024x32 : 0 < S1024x32.numel
  shapeCasts_S32768x32_S1048576x1 : S32768x32.ShapeCasts S1048576x1
  scatter_S1x384_S2_S320_0_0_01_0_wf : ScatterDims.WF S1x384 S2 S320 [0] [0] [0, 1] 0
  scatter_S1x384_S2_S__n_01_01_0_wf : ScatterDims.WF S1x384 S2 S_ [] [0, 1] [0, 1] 0
  dot_S1024x384_S384x320_S1024x320_1_0_0_1_n_n_wf : DotDims.WF S1024x384 S384x320 S1024x320 [1] [0] [0] [1] [] []
  dot_S1024x320_S320x32_S1024x32_1_0_0_1_n_n_wf : DotDims.WF S1024x320 S320x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x384.size a ≤ S32768x384.size a
  hwx0_0 : ∀ i : grid0.Coords, EltTy.bits .f32 = 32 ∨ (Rect.block (s := S32768x384) S1024x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x320.size a ≤ S384x320.size a
  hwx0_1 : ∀ i : grid0.Coords, EltTy.bits .f32 = 32 ∨ (Rect.block (s := S384x320) S384x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x32.size a ≤ S320x32.size a
  hwx0_3 : ∀ i : grid0.Coords, EltTy.bits .f32 = 32 ∨ (Rect.block (s := S320x32) S320x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S32768x32.size a
  hwx0_4 : ∀ i : grid0.Coords, EltTy.bits .f32 = 32 ∨ (Rect.block (s := S32768x32) S1024x32.size (cc0_transform_4 i) (hinb0_4 i)).WholeWords (EltTy.packing .f32)

variable [Facts₀]

def scatter_S1x384_S2_S320_0_0_01_0 : ScatterDims S1x384 S2 S320 where
  updateWindowDims := [0]
  insertedWindowDims := [0]
  scatterDimsToOperandDims := [0, 1]
  indexVectorDim := 0
  wf := scatter_S1x384_S2_S320_0_0_01_0_wf
def scatter_S1x384_S2_S__n_01_01_0 : ScatterDims S1x384 S2 S_ where
  updateWindowDims := []
  insertedWindowDims := [0, 1]
  scatterDimsToOperandDims := [0, 1]
  indexVectorDim := 0
  wf := scatter_S1x384_S2_S__n_01_01_0_wf
def dot_S1024x384_S384x320_S1024x320_1_0_0_1_n_n : DotDims S1024x384 S384x320 S1024x320 where
  lhsContracting := [1]
  rhsContracting := [0]
  lhsNonContracting := [0]
  rhsNonContracting := [1]
  lhsBatch := []
  rhsBatch := []
  wf := dot_S1024x384_S384x320_S1024x320_1_0_0_1_n_n_wf
def dot_S1024x320_S320x32_S1024x32_1_0_0_1_n_n : DotDims S1024x320 S320x32 S1024x32 where
  lhsContracting := [1]
  rhsContracting := [0]
  lhsNonContracting := [0]
  rhsNonContracting := [1]
  lhsBatch := []
  rhsBatch := []
  wf := dot_S1024x320_S320x32_S1024x32_1_0_0_1_n_n_wf

abbrev win0_0 : Pipeline.Window sig grid0 :=
  Pipeline.Window.ofSpec (Memref.whole main_v23) S1024x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S384x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S320x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1024x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x12 : Shape := ⟨2, ![1048576, 12]⟩
abbrev S10x12 : Shape := ⟨2, ![10, 12]⟩
abbrev S10 : Shape := ⟨1, ![10]⟩
abbrev S1x10 : Shape := ⟨2, ![1, 10]⟩
abbrev S1 : Shape := ⟨1, ![1]⟩
abbrev S0 : Shape := ⟨1, ![0]⟩
abbrev S_ : Shape := ⟨0, ![]⟩
abbrev S10x15 : Shape := ⟨2, ![10, 15]⟩
abbrev S2 : Shape := ⟨1, ![2]⟩
abbrev S12x1048576 : Shape := ⟨2, ![12, 1048576]⟩
abbrev S1x1048576 : Shape := ⟨2, ![1, 1048576]⟩
abbrev S12x512 : Shape := ⟨2, ![12, 512]⟩
abbrev S1x512 : Shape := ⟨2, ![1, 512]⟩
abbrev S10x1 : Shape := ⟨2, ![10, 1]⟩
abbrev S1x1 : Shape := ⟨2, ![1, 1]⟩
abbrev S10x512 : Shape := ⟨2, ![10, 512]⟩
abbrev S512 : Shape := ⟨1, ![512]⟩
abbrev S1048576x1 : Shape := ⟨2, ![1048576, 1]⟩

abbrev nBuf : Space → Nat
  | .hbm => 31
  | .vmem => 5
  | .smem => 0
  | _ => 0

abbrev bufTy : (tb : Table) → Fin (tcTables nBuf tb) → BufTy
  | .hbm, ⟨0, _⟩ => ⟨S1048576x12, .f32⟩
  | .hbm, ⟨1, _⟩ => ⟨S10x12, .f32⟩
  | .hbm, ⟨2, _⟩ => ⟨S10, .f32⟩
  | .hbm, ⟨3, _⟩ => ⟨S1x10, .f32⟩
  | .hbm, ⟨4, _⟩ => ⟨S1, .f32⟩
  | .hbm, ⟨5, _⟩ => ⟨S0, .i32⟩
  | .hbm, ⟨6, _⟩ => ⟨S_, .f32⟩
  | .hbm, ⟨7, _⟩ => ⟨S10x15, .f32⟩
  | .hbm, ⟨8, _⟩ => ⟨S_, .i32⟩
  | .hbm, ⟨9, _⟩ => ⟨S1, .i32⟩
  | .hbm, ⟨10, _⟩ => ⟨S10x15, .f32⟩
  | .hbm, ⟨11, _⟩ => ⟨S_, .i32⟩
  | .hbm, ⟨12, _⟩ => ⟨S1, .i32⟩
  | .hbm, ⟨13, _⟩ => ⟨S10x15, .f32⟩
  | .hbm, ⟨14, _⟩ => ⟨S10, .f32⟩
  | .hbm, ⟨15, _⟩ => ⟨S_, .i32⟩
  | .hbm, ⟨16, _⟩ => ⟨S1, .i32⟩
  | .hbm, ⟨17, _⟩ => ⟨S10x15, .f32⟩
  | .hbm, ⟨18, _⟩ => ⟨S_, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S10x15, .f32⟩
  | .hbm, ⟨25, _⟩ => ⟨S_, .f32⟩
  | .hbm, ⟨26, _⟩ => ⟨S12x1048576, .f32⟩
  | .hbm, ⟨27, _⟩ => ⟨S12x1048576, .f32⟩
  | .hbm, ⟨28, _⟩ => ⟨S12x1048576, .f32⟩
  | .hbm, ⟨29, _⟩ => ⟨S1x1048576, .f32⟩
  | .hbm, ⟨30, _⟩ => ⟨S1048576x1, .f32⟩
  | .local _ .vmem, ⟨0, _⟩ => ⟨S12x512, .f32⟩
  | .local _ .vmem, ⟨1, _⟩ => ⟨S12x512, .f32⟩
  | .local _ .vmem, ⟨2, _⟩ => ⟨S10x15, .f32⟩
  | .local _ .vmem, ⟨3, _⟩ => ⟨S1x512, .f32⟩
  | .local _ .vmem, ⟨4, _⟩ => ⟨S1x512, .f32⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  hz_S0 : S0.numel = 0
  bcast_S_S10x15 : S_.BroadcastsInDim S10x15 (![] : Fin 0 → Fin S10x15.rank)
  bcast_S_S1 : S_.BroadcastsInDim S1 (![] : Fin 0 → Fin S1.rank)
  shapeCasts_S1x10_S10 : S1x10.ShapeCasts S10
  shapeCasts_S1_S_ : S1.ShapeCasts S_
  concatenates_S1_S1_S2_d0 : Shape.Concatenates [S1, S1] S2 0
  bcast_S_S12x1048576 : S_.BroadcastsInDim S12x1048576 (![] : Fin 0 → Fin S12x1048576.rank)
  transposes_S1048576x12_S12x1048576_1_0 : S1048576x12.Transposes [1, 0] S12x1048576
  inb_S10x15_S10x12_0_0 : ∀ a, (![0, 0] : Fin 2 → Nat) a + S10x12.size a ≤ S10x15.size a
  h_S10x12 : 0 < S10x12.numel
  shapeCasts_S10x12_S10x12 : S10x12.ShapeCasts S10x12
  inb_S10x15_S10x1_0_12 : ∀ a, (![0, 12] : Fin 2 → Nat) a + S10x1.size a ≤ S10x15.size a
  h_S10x1 : 0 < S10x1.numel
  shapeCasts_S10x1_S10x1 : S10x1.ShapeCasts S10x1
  inb_S10x15_S10x1_0_13 : ∀ a, (![0, 13] : Fin 2 → Nat) a + S10x1.size a ≤ S10x15.size a
  inb_S10x15_S1x1_0_14 : ∀ a, (![0, 14] : Fin 2 → Nat) a + S1x1.size a ≤ S10x15.size a
  h_S1x1 : 0 < S1x1.numel
  shapeCasts_S1x1_S1x1 : S1x1.ShapeCasts S1x1
  inb_S12x512_S12x512_0_0 : ∀ a, (![0, 0] : Fin 2 → Nat) a + S12x512.size a ≤ S12x512.size a
  h_S12x512 : 0 < S12x512.numel
  shapeCasts_S12x512_S12x512 : S12x512.ShapeCasts S12x512
  broadcasts_S10x1_S10x512 : S10x1.Broadcasts S10x512
  reduces_S10x512_S512 : S10x512.Reduces [0] S512
  shapeCasts_S512_S1x512 : S512.ShapeCasts S1x512
  broadcasts_S1x1_S1x512 : S1x1.Broadcasts S1x512
  inb_S1x512_S1x512_0_0 : ∀ a, (![0, 0] : Fin 2 → Nat) a + S1x512.size a ≤ S1x512.size a
  h_S1x512 : 0 < S1x512.numel
  transposes_S1x1048576_S1048576x1_1_0 : S1x1048576.Transposes [1, 0] S1048576x1
  scatter_S10x15_S1_S10x12_01_n_1_0_wf : ScatterDims.WF S10x15 S1 S10x12 [0, 1] [] [1] 0
  scatter_S10x15_S1_S10_0_1_1_0_wf : ScatterDims.WF S10x15 S1 S10 [0] [1] [1] 0
  scatter_S10x15_S2_S__n_01_01_0_wf : ScatterDims.WF S10x15 S2 S_ [] [0, 1] [0, 1] 0
  scatter_S12x1048576_S0_S12x1048576_01_n_n_0_wf : ScatterDims.WF S12x1048576 S0 S12x1048576 [0, 1] [] [] 0
  dot_S10x12_S12x512_S10x512_1_0_0_1_n_n_wf : DotDims.WF S10x12 S12x512 S10x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x512.size a ≤ S12x1048576.size a
  hwx0_0 : ∀ i : grid0.Coords, EltTy.bits .f32 = 32 ∨ (Rect.block (s := S12x1048576) S12x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x15.size a ≤ S10x15.size a
  hwx0_1 : ∀ i : grid0.Coords, EltTy.bits .f32 = 32 ∨ (Rect.block (s := S10x15) S10x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1048576.size a
  hwx0_2 : ∀ i : grid0.Coords, EltTy.bits .f32 = 32 ∨ (Rect.block (s := S1x1048576) S1x512.size (cc0_transform_2 i) (hinb0_2 i)).WholeWords (EltTy.packing .f32)

variable [Facts₀]

def scatter_S10x15_S1_S10x12_01_n_1_0 : ScatterDims S10x15 S1 S10x12 where
  updateWindowDims := [0, 1]
  insertedWindowDims := []
  scatterDimsToOperandDims := [1]
  indexVectorDim := 0
  wf := scatter_S10x15_S1_S10x12_01_n_1_0_wf
def scatter_S10x15_S1_S10_0_1_1_0 : ScatterDims S10x15 S1 S10 where
  updateWindowDims := [0]
  insertedWindowDims := [1]
  scatterDimsToOperandDims := [1]
  indexVectorDim := 0
  wf := scatter_S10x15_S1_S10_0_1_1_0_wf
def scatter_S10x15_S2_S__n_01_01_0 : ScatterDims S10x15 S2 S_ where
  updateWindowDims := []
  insertedWindowDims := [0, 1]
  scatterDimsToOperandDims := [0, 1]
  indexVectorDim := 0
  wf := scatter_S10x15_S2_S__n_01_01_0_wf
def scatter_S12x1048576_S0_S12x1048576_01_n_n_0 : ScatterDims S12x1048576 S0 S12x1048576 where
  updateWindowDims := [0, 1]
  insertedWindowDims := []
  scatterDimsToOperandDims := []
  indexVectorDim := 0
  wf := scatter_S12x1048576_S0_S12x1048576_01_n_n_0_wf
def dot_S10x12_S12x512_S10x512_1_0_0_1_n_n : DotDims S10x12 S12x512 S10x512 where
  lhsContracting := [1]
  rhsContracting := [0]
  lhsNonContracting := [0]
  rhsNonContracting := [1]
  lhsBatch := []
  rhsBatch := []
  wf := dot_S10x12_S12x512_S10x512_1_0_0_1_n_n_wf

abbrev win0_0 : Pipeline.Window sig grid0 :=
  Pipeline.Window.ofSpec (Memref.whole main_v15) S12x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10x15.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.KBody.lean ====
import proofs.«107644_g2000702263430979_pallasbulk_829_7_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Body
open Idealize.ShloMosaic Cert.KernelIdeal Cert.KernelIdeal.Gen
open Idealize.ShloMosaic.ValueIdx
open scoped BigOperators

/-! ## The two products read at an index

Each product contracts ONE axis into a zero accumulator, so at an output index it is the sum, over that axis's
coordinates, of the operands' products: the contraction index is re-indexed by its one coordinate. -/

/-- The first product at (r, q): row r of the left operand against column q of the right one, over 384 terms. -/
theorem matmul1_apply (lhs : FVec Ideal S1024x384 .f32) (rhs : FVec Ideal S384x320 .f32) (r : Fin 1024) (q : Fin 320) :
    matmul dot_S1024x384_S384x320_S1024x320_1_0_0_1_n_n none lhs rhs (constant (F := Ideal) S1024x320 .f32 0x00000000#32) (ix2 r q)
      = ∑ q' : Fin 384, lhs (ix2 r q') * rhs (ix2 q' q) := by
  refine (Ideal.matmul_constant_zero_apply dot_S1024x384_S384x320_S1024x320_1_0_0_1_n_n none lhs rhs (ix2 r q)).trans ?_
  rw [← Equiv.sum_comp (contrEquiv1 dot_S1024x384_S384x320_S1024x320_1_0_0_1_n_n 384 rfl rfl).symm]
  refine Finset.sum_congr rfl fun q' _ => ?_
  have hl : dot_S1024x384_S384x320_S1024x320_1_0_0_1_n_n.lhsIdx (ix2 r q)
      ((contrEquiv1 dot_S1024x384_S384x320_S1024x320_1_0_0_1_n_n 384 rfl rfl).symm q') = ix2 r q' := by
    funext a; refine Fin.ext ?_
    match a with
    | ⟨0, _⟩ => rfl
    | ⟨1, _⟩ =>
      exact (DotDims.lhsIdx_val_of_single _ (cl := 1) rfl _ _).trans (contrEquiv1_symm_val _ 384 rfl rfl q')
  have hr : dot_S1024x384_S384x320_S1024x320_1_0_0_1_n_n.rhsIdx (ix2 r q)
      ((contrEquiv1 dot_S1024x384_S384x320_S1024x320_1_0_0_1_n_n 384 rfl rfl).symm q') = ix2 q' q := by
    funext a; refine Fin.ext ?_
    match a with
    | ⟨0, _⟩ =>
      exact (DotDims.rhsIdx_val_of_single _ (cr := 0) rfl _ _).trans (contrEquiv1_symm_val _ 384 rfl rfl q')
    | ⟨1, _⟩ => rfl
  rw [hl, hr]

/-- The second product at (r, p): row r of the left operand against column p of the right one, over 320 terms. -/
theorem matmul2_apply (lhs : FVec Ideal S1024x320 .f32) (rhs : FVec Ideal S320x32 .f32) (r : Fin 1024) (p : Fin 32) :
    matmul dot_S1024x320_S320x32_S1024x32_1_0_0_1_n_n none lhs rhs (constant (F := Ideal) S1024x32 .f32 0x00000000#32) (ix2 r p)
      = ∑ q : Fin 320, lhs (ix2 r q) * rhs (ix2 q p) := by
  refine (Ideal.matmul_constant_zero_apply dot_S1024x320_S320x32_S1024x32_1_0_0_1_n_n none lhs rhs (ix2 r p)).trans ?_
  rw [← Equiv.sum_comp (contrEquiv1 dot_S1024x320_S320x32_S1024x32_1_0_0_1_n_n 320 rfl rfl).symm]
  refine Finset.sum_congr rfl fun q _ => ?_
  have hl : dot_S1024x320_S320x32_S1024x32_1_0_0_1_n_n.lhsIdx (ix2 r p)
      ((contrEquiv1 dot_S1024x320_S320x32_S1024x32_1_0_0_1_n_n 320 rfl rfl).symm q) = ix2 r q := by
    funext a; refine Fin.ext ?_
    match a with
    | ⟨0, _⟩ => rfl
    | ⟨1, _⟩ =>
      exact (DotDims.lhsIdx_val_of_single _ (cl := 1) rfl _ _).trans (contrEquiv1_symm_val _ 320 rfl rfl q)
  have hr : dot_S1024x320_S320x32_S1024x32_1_0_0_1_n_n.rhsIdx (ix2 r p)
      ((contrEquiv1 dot_S1024x320_S320x32_S1024x32_1_0_0_1_n_n 320 rfl rfl).symm q) = ix2 q p := by
    funext a; refine Fin.ext ?_
    match a with
    | ⟨0, _⟩ =>
      exact (DotDims.rhsIdx_val_of_single _ (cr := 0) rfl _ _).trans (contrEquiv1_symm_val _ 320 rfl rfl q)
    | ⟨1, _⟩ => rfl
  rw [hl, hr]

/-! ## The body's arithmetic at an index -/

/-- The payload at (r, p), over any five loaded values: the hidden row tanh(v4 · v6 + v0), each of its 320 entries
    times the second weight's column p, summed, plus the one scalar v2. -/
theorem pay_apply (v0 : Vec Ideal S1x320 .f32) (v2 : Vec Ideal S1x1 .f32) (v4 : Vec Ideal S1024x384 .f32)
    (v6 : Vec Ideal S384x320 .f32) (v12 : Vec Ideal S320x32 .f32) (r : Fin 1024) (p : Fin 32) :
    k0_pay1 (F := Ideal) v0 v2 v4 v6 v12 (ix2 r p)
      = (∑ q : Fin 320,
          FloatOps.tanh (F := Ideal) (φ := .f32)
              ((∑ q' : Fin 384, v4 (ix2 r q') * v6 (ix2 q' q)) + v0 (ix2 (0 : Fin 1) q))
            * v12 (ix2 q p))
        + v2 (ix2 (0 : Fin 1) (0 : Fin 1)) := by
  unfold k0_pay1
  simp only [shapeCast_self]
  rw [addf_apply, matmul2_apply,
    broadcastTo_apply v2 broadcasts_S1x1_S1024x32 (ix2 r p) (ix2 (0 : Fin 1) (0 : Fin 1)) (fun a => by
      match a with
      | ⟨0, _⟩ => rfl
      | ⟨1, _⟩ => rfl)]
  refine congrArg (· + v2 (ix2 (0 : Fin 1) (0 : Fin 1))) (Finset.sum_congr rfl fun q _ => ?_)
  refine congrArg (· * v12 (ix2 q p)) ?_
  refine congrArg (FloatOps.tanh (F := Ideal) (φ := .f32)) ?_
  rw [addf_apply, matmul1_apply, broadcastTo_1b_ab_apply]

/-! ## The two partial loads of the bias row -/

theorem origin_zero : (![0, 0] : Fin 2 → Nat) = fun _ => 0 := funext fun a => by
  match a with
  | ⟨0, _⟩ => rfl
  | ⟨1, _⟩ => rfl

/-- Lane q of the 320-lane load at the row's origin is lane q of the row. -/
theorem bias1_idx (q : Fin 320) :
    r0_0.idx (ix2 (0 : Fin 1) q) = ix2 (0 : Fin 1) (Fin.castLE (by decide : 320 ≤ 384) q) := by
  funext a; refine Fin.ext ?_
  match a with
  | ⟨0, _⟩ => rfl
  | ⟨1, _⟩ => show 0 + 1 * q.val = q.val; omega

/-- The one lane of the single-lane load at offset 320 is lane 320 of the row. -/
theorem bias2_idx :
    r0_1.idx (ix2 (0 : Fin 1) (0 : Fin 1)) = ix2 (0 : Fin 1) (⟨320, by decide⟩ : Fin 384) := by
  funext a; refine Fin.ext ?_
  match a with
  | ⟨0, _⟩ => rfl
  | ⟨1, _⟩ => rfl

/-- What the packed body leaves at (row r, lane p) of its output block, from the input block x0, the two block-diagonal
    weights x1, x3 and the bias row x2. -/
theorem out_apply (x0 : Vec Ideal S1024x384 .f32) (x1 : Vec Ideal S384x320 .f32) (x2 : Vec Ideal S1x384 .f32)
    (x3 : Vec Ideal S320x32 .f32) (r : Fin 1024) (p : Fin 32) :
    Gen.out0_4 (F := Ideal) x0 x1 x2 x3 (ix2 r p)
      = (∑ q : Fin 320,
          FloatOps.tanh (F := Ideal) (φ := .f32)
              ((∑ q' : Fin 384, x0 (ix2 r q') * x1 (ix2 q' q)) + x2 (ix2 (0 : Fin 1) (Fin.castLE (by decide : 320 ≤ 384) q)))
            * x3 (ix2 q p))
        + x2 (ix2 (0 : Fin 1) (⟨320, by decide⟩ : Fin 384)) := by
  unfold Gen.out0_4
  rw [View.canon_unit_zero origin_zero]
  simp only [View.ld_unit_zero (S := S1024x384) origin_zero, View.ld_unit_zero (S := S384x320) origin_zero,
    View.ld_unit_zero (S := S320x32) origin_zero]
  refine (pay_apply _ _ x0 x1 x3 r p).trans ?_
  refine congrArg₂ (· + ·) (Finset.sum_congr rfl fun q _ => ?_) (congrArg x2 bias2_idx)
  refine congrArg (· * x3 (ix2 q p)) (congrArg (FloatOps.tanh (F := Ideal) (φ := .f32)) ?_)
  exact congrArg ((∑ q' : Fin 384, x0 (ix2 r q') * x1 (ix2 q' q)) + ·) (congrArg x2 (bias1_idx q))

end Cert.KernelIdeal.Body
end
-- ==== Proof.KArray.lean ====
/-
  The packed kernel's output array after the run, as ONE function of the four arrays it was launched on.

  Grid point t writes back block t of the output: rows 1024·t .. 1024·t + 1023, all 32 lanes. It reads block t of the
  packed input (the same rows, all 384 lanes) and the whole of the two weights and of the bias row. The 32 blocks tile
  the [32768, 32] output, so the array ends holding `arr` everywhere.
-/
import proofs.«107644_g2000702263430979_pallasbulk_829_7_alg».proof.Proof.Gen.KernelIdeal.Frame
import proofs.«107644_g2000702263430979_pallasbulk_829_7_alg».proof.Proof.KBody
import Idealize.ShloMosaic.Lib.ValueIdx
import Idealize.ShloMosaic.Lib.Pipeline.Value
import Idealize.ShloMosaic.PureOps.Ideal.Laws

set_option maxRecDepth 16384

noncomputable section

namespace Cert.KernelIdeal.Array

open Idealize.ShloMosaic Idealize.ShloMosaic.ValueIdx Idealize.ShloMosaic.TcCoe Idealize.SL.Sem Cert.KernelIdeal Cert.KernelIdeal.Gen
open Idealize.ShloMosaic.Pipeline (Dat)

/-- The output array as a function of the packed input `xp`, the weights `w1e`, `w2e` and the bias row `aux`:
    entry (R, p) is `(∑ q, tanh ((∑ q', xp R q' · w1e q' q) + aux q) · w2e q p) + aux 320`. -/
def arr (xp : S32768x384.Idx → EReal) (w1e : S384x320.Idx → EReal) (aux : S1x384.Idx → EReal) (w2e : S320x32.Idx → EReal) :
    S32768x32.Idx → EReal := fun i =>
  (∑ q : Fin 320,
      FloatOps.tanh (F := Ideal) (φ := .f32)
          ((∑ q' : Fin 384, xp (ix2 (i 0) q') * w1e (ix2 q' q)) + aux (ix2 (0 : Fin 1) (Fin.castLE (by decide : 320 ≤ 384) q)))
        * w2e (ix2 q (i 1)))
    + aux (ix2 (0 : Fin 1) (⟨320, by decide⟩ : Fin 384))

/-- The body's output block at any index of the block (the body lemma, with the index split into its coordinates). -/
theorem out_at (x0 : Vec Ideal S1024x384 .f32) (x1 : Vec Ideal S384x320 .f32) (x2 : Vec Ideal S1x384 .f32)
    (x3 : Vec Ideal S320x32 .f32) (j : S1024x32.Idx) :
    Gen.out0_4 (F := Ideal) x0 x1 x2 x3 j
      = (∑ q : Fin 320,
          FloatOps.tanh (F := Ideal) (φ := .f32)
              ((∑ q' : Fin 384, x0 (ix2 (j 0) q') * x1 (ix2 q' q)) + x2 (ix2 (0 : Fin 1) (Fin.castLE (by decide : 320 ≤ 384) q)))
            * x3 (ix2 q (j 1)))
        + x2 (ix2 (0 : Fin 1) (⟨320, by decide⟩ : Fin 384)) :=
  (congrArg (Gen.out0_4 (F := Ideal) x0 x1 x2 x3) (eq_ix2 j)).trans (Cert.KernelIdeal.Body.out_apply x0 x1 x2 x3 (j 0) (j 1))

variable (m : (ℓ : Loc nD τ sig) → Buf (Elt Ideal) ℓ) (c : Dev nD)

/-- The printed index maps over the grid: the input's and the output's blocks move down the rows with the grid point,
    the weights and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point t writes back is block t of `arr` of the arrays as the region finds them. -/
theorem flushed_eq (t : Fin cfg0.N) :
    (dats m 0 c).flushed 4 t = ((cfg0.win 4).blk t).view.read (Elt Ideal)
      (arr (V m c main_v23) (V m c main_v7) (V m c main_v22) (V m c main_v9)) := by
  show (cfg0.win 4).cut (grid0.coords t) ((dats m 0 c).after 4 t) = _
  rw [after0_4]
  obtain ⟨e00, e01, e10, e11, e20, e21, e30, e31, e40, e41⟩ := idx_facts t
  funext j
  show Gen.out0_4 (F := Ideal) (iblk m c 0 t) (iblk m c 1 t) (iblk m c 2 t) (iblk m c 3 t) j
    = arr (V m c main_v23) (V m c main_v7) (V m c main_v22) (V m c main_v9) (((cfg0.win 4).blk t).view.emb j)
  refine (out_at (iblk m c 0 t) (iblk m c 1 t) (iblk m c 2 t) (iblk m c 3 t) j).trans ?_
  have r0 : ∀ q' : Fin 384, iblk m c 0 t (ix2 (j 0) q')
      = V m c main_v23 (ix2 ((((cfg0.win 4).blk t).view.emb j) 0) q') := fun q' => by
    show V m c main_v23 (((cfg0.win 0).blk t).view.emb (ix2 (j 0) q')) = _
    refine congrArg (V m c main_v23) (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 384 + 1 * q'.val = q'.val; omega
  have r1 : ∀ (q' : Fin 384) (q : Fin 320), iblk m c 1 t (ix2 q' q) = V m c main_v7 (ix2 q' q) := fun q' q => by
    show V m c main_v7 (((cfg0.win 1).blk t).view.emb (ix2 q' q)) = _
    refine congrArg (V m c main_v7) (funext fun a => Fin.ext ?_)
    match a with
    | ⟨0, _⟩ => show win0_1.index t (0 : Fin 2) * 384 + 1 * q'.val = q'.val; omega
    | ⟨1, _⟩ => show win0_1.index t (1 : Fin 2) * 320 + 1 * q.val = q.val; omega
  have r2 : ∀ z : Fin 384, iblk m c 2 t (ix2 (0 : Fin 1) z) = V m c main_v22 (ix2 (0 : Fin 1) z) := fun z => by
    show V m c main_v22 (((cfg0.win 2).blk t).view.emb (ix2 (0 : Fin 1) z)) = _
    refine congrArg (V m c main_v22) (funext fun a => Fin.ext ?_)
    match a with
    | ⟨0, _⟩ => show win0_2.index t (0 : Fin 2) * 1 + 1 * 0 = 0; omega
    | ⟨1, _⟩ => show win0_2.index t (1 : Fin 2) * 384 + 1 * z.val = z.val; omega
  have r3 : ∀ q : Fin 320, iblk m c 3 t (ix2 q (j 1))
      = V m c main_v9 (ix2 q ((((cfg0.win 4).blk t).view.emb j) 1)) := fun q => by
    show V m c main_v9 (((cfg0.win 3).blk t).view.emb (ix2 q (j 1))) = _
    refine congrArg (V m c main_v9) (funext fun a => Fin.ext ?_)
    match a with
    | ⟨0, _⟩ => show win0_3.index t (0 : Fin 2) * 320 + 1 * q.val = q.val; omega
    | ⟨1, _⟩ => show win0_3.index t (1 : Fin 2) * 32 + 1 * (j 1).val = win0_4.index t (1 : Fin 2) * 32 + 1 * (j 1).val; omega
  simp only [r0, r1, r2, r3]
  rfl

/-- An index of the output array is in point t's block iff each coordinate is in the block's range on its axis. -/
theorem mem_blk (t : Fin cfg0.N) (i : S32768x32.Idx) :
    i ∈ ((cfg0.win 4).blk t).view.set ↔ ∀ a : Fin 2, win0_4.index t a * S1024x32.size a ≤ (i a).val
      ∧ (i a).val < win0_4.index t a * S1024x32.size a + S1024x32.size a := by
  show i ∈ ((View.whole main_v24).slice (win0_4.rect t)).set ↔ _
  rw [View.set_slice_whole, Rect.mem_set_unit]
  exact Iff.rfl

/-- The 32 blocks tile the output: row R lies in the block of point R / 1024. -/
theorem cover (i : S32768x32.Idx) :
    ∃ t : Fin cfg0.N, (cfg0.win 4).flush t = true ∧ i ∈ ((cfg0.win 4).blk t).view.set := by
  have hi0 : (i 0).val < 32768 := (i 0).isLt
  have hi1 : (i 1).val < 32 := (i 1).isLt
  have hN : cfg0.N = 32 := N_0
  have hlt : (i 0).val / 1024 < cfg0.N := by rw [hN]; omega
  obtain ⟨t, ht'⟩ : ∃ t : Fin cfg0.N, t.val = (i 0).val / 1024 := ⟨⟨(i 0).val / 1024, hlt⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 32 ≤ (i 1).val ∧ (i 1).val < win0_4.index t (1 : Fin 2) * 32 + 32; omega

/-- The output array after the run. -/
theorem final : (dats m 0 c).arrAt 4 cfg0.N = arr (V m c main_v23) (V m c main_v7) (V m c main_v22) (V m c main_v9) :=
  (dats m 0 c).arrAt_eq_of_cover 4 _ (fun t _ => flushed_eq m c t) (cover)

end Cert.KernelIdeal.Array

end
-- ==== Proof.HostTerms.lean ====
/-
  The arrays the two programs hand to their kernels, each as ONE function of the argument arrays.

  Kernel side. The packed MLP works on 32 batch rows at a time: the 32×32 identity `eye`; the first layer's
  block-diagonal weight `w1e = kron(eye, w1ᵀ)` of shape [384, 320]; the second layer's block-diagonal weight
  `w2e = kron(eye, w2ᵀ)` of shape [320, 32]; the row `aux` of shape [1, 384] holding b1 tiled 32 times in lanes
  0..319 and b2 in lane 320; and `xp`, the input's bytes viewed as [32768, 384].

  Reference side. The packed parameter table `params` of shape [10, 15] (columns 0..11 = w1, 12 = b1, 13 = w2,
  14 = b2 in row 0) and the transposed input `xt` of shape [12, 1048576] written over a zero array.
-/
import proofs.«107644_g2000702263430979_pallasbulk_829_7_alg».proof.Proof.Gen.KernelIdeal
import proofs.«107644_g2000702263430979_pallasbulk_829_7_alg».proof.Proof.Gen.ReferenceIdeal
import Idealize.ShloMosaic.PureOps.Ideal
import Idealize.ShloMosaic.Lib.ValueIdx

noncomputable section

namespace Cert.HostTerms.K

open Idealize.ShloMosaic Cert.KernelIdeal Cert.KernelIdeal.Facts₀

/-- The 32×32 identity matrix: 1 where the row number equals the column number, else 0. -/
def eye : FVec Ideal S32x32 .f32 :=
  uitofp .f32 (cmpi .eq (addi (iotaInDim S32x32 32 0) (broadcastInDim S32x32 ![] bcast_S_S32x32 (constantI S_ 32 0#32)))
    (iotaInDim S32x32 32 1))

/-- `kron(eye, w1ᵀ)`: entry (12·p' + k, 10·p + j) is `eye p' p · w1 j k`. -/
def w1e (w1 : FVec Ideal S10x12 .f32) : FVec Ideal S384x320 .f32 :=
  shapeCast S384x320
    (mulf
      (broadcastInDim S32x12x32x10 ![0, 1, 2, 3] bcast_S32x1x32x1_S32x12x32x10_0_1_2_3
        (broadcastInDim S32x1x32x1 ![0, 2] bcast_S32x32_S32x1x32x1_0_2 eye))
      (broadcastInDim S32x12x32x10 ![0, 1, 2, 3] bcast_S1x12x1x10_S32x12x32x10_0_1_2_3
        (broadcastInDim S1x12x1x10 ![1, 3] bcast_S12x10_S1x12x1x10_1_3
          (transpose S12x10 [1, 0] w1 transposes_S10x12_S12x10_1_0))))
    shapeCasts_S32x12x32x10_S384x320

/-- `kron(eye, w2ᵀ)`: entry (10·p' + j, p) is `eye p' p · w2 0 j`. -/
def w2e (w2 : FVec Ideal S1x10 .f32) : FVec Ideal S320x32 .f32 :=
  shapeCast S320x32
    (mulf
      (broadcastInDim S32x10x32x1 ![0, 1, 2, 3] bcast_S32x1x32x1_S32x10x32x1_0_1_2_3
        (broadcastInDim S32x1x32x1 ![0, 2] bcast_S32x32_S32x1x32x1_0_2 eye))
      (broadcastInDim S32x10x32x1 ![0, 1, 2, 3] bcast_S1x10x1x1_S32x10x32x1_0_1_2_3
        (broadcastInDim S1x10x1x1 ![1, 3] bcast_S10x1_S1x10x1x1_1_3
          (shapeCast S10x1 w2 shapeCasts_S1x10_S10x1))))
    shapeCasts_S32x10x32x1_S320x32

/-- The row of biases: zeros, then b1 tiled 32 times written at lane 0, then b2 written at lane 320. -/
def aux (b1 : FVec Ideal S10 .f32) (b2 : FVec Ideal S1 .f32) : FVec Ideal S1x384 .f32 :=
  Host.scatter scatter_S1x384_S2_S__n_01_01_0 (fun _ b => b)
    (Host.scatter scatter_S1x384_S2_S320_0_0_01_0 (fun _ b => b)
      (broadcastInDim S1x384 ![] bcast_S_S1x384 (constant S_ .f32 0x00000000#32))
      (concatenate S2 0
        [⟨S1, broadcastInDim S1 ![] bcast_S_S1 (constantI S_ 32 0#32)⟩,
          ⟨S1, broadcastInDim S1 ![] bcast_S_S1 (constantI S_ 32 0#32)⟩]
        concatenates_S1_S1_S2_d0)
      (shapeCast S320
        (broadcastInDim S32x10 ![0, 1] bcast_S1x10_S32x10_0_1 (shapeCast S1x10 b1 shapeCasts_S10_S1x10))
        shapeCasts_S32x10_S320))
    (concatenate S2 0
      [⟨S1, broadcastInDim S1 ![] bcast_S_S1 (constantI S_ 32 0#32)⟩,
        ⟨S1, broadcastInDim S1 ![] bcast_S_S1 (constantI S_ 32 320#32)⟩]
      concatenates_S1_S1_S2_d0)
    (shapeCast S_ b2 shapeCasts_S1_S_)

/-- The input viewed as [32768, 384]: row r holds batch rows 32·r .. 32·r + 31, twelve lanes each. -/
def xp (x : FVec Ideal S1048576x12 .f32) : FVec Ideal S32768x384 .f32 :=
  shapeCast S32768x384 x shapeCasts_S1048576x12_S32768x384

end Cert.HostTerms.K

namespace Cert.HostTerms.R

open Idealize.ShloMosaic Cert.ReferenceIdeal Cert.ReferenceIdeal.Facts₀

/-- The packed parameter table [10, 15]: zeros, then w1 at column 0, b1 at column 12, w2's row at column 13,
    b2 at entry (0, 14). -/
def params (w1 : FVec Ideal S10x12 .f32) (b1 : FVec Ideal S10 .f32) (w2 : FVec Ideal S1x10 .f32) (b2 : FVec Ideal S1 .f32) :
    FVec Ideal S10x15 .f32 :=
  Host.scatter scatter_S10x15_S2_S__n_01_01_0 (fun _ b => b)
    (Host.scatter scatter_S10x15_S1_S10_0_1_1_0 (fun _ b => b)
      (Host.scatter scatter_S10x15_S1_S10_0_1_1_0 (fun _ b => b)
        (Host.scatter scatter_S10x15_S1_S10x12_01_n_1_0 (fun _ b => b)
          (broadcastInDim S10x15 ![] bcast_S_S10x15 (constant S_ .f32 0x00000000#32))
          (broadcastInDim S1 ![] bcast_S_S1 (constantI S_ 32 0#32)) w1)
        (broadcastInDim S1 ![] bcast_S_S1 (constantI S_ 32 12#32)) b1)
      (broadcastInDim S1 ![] bcast_S_S1 (constantI S_ 32 13#32)) (shapeCast S10 w2 shapeCasts_S1x10_S10))
    (concatenate S2 0
      [⟨S1, broadcastInDim S1 ![] bcast_S_S1 (constantI S_ 32 0#32)⟩,
        ⟨S1, broadcastInDim S1 ![] bcast_S_S1 (constantI S_ 32 14#32)⟩]
      concatenates_S1_S1_S2_d0)
    (shapeCast S_ b2 shapeCasts_S1_S_)

/-- The transposed input [12, 1048576], written whole over a zero array. -/
def xt (x : FVec Ideal S1048576x12 .f32) : FVec Ideal S12x1048576 .f32 :=
  Host.scatter scatter_S12x1048576_S0_S12x1048576_01_n_n_0 (fun _ b => b)
    (broadcastInDim S12x1048576 ![] bcast_S_S12x1048576 (constant S_ .f32 0x00000000#32)) (emptyVec S0 hz_S0 : IVec S0 32)
    (transpose S12x1048576 [1, 0] x transposes_S1048576x12_S12x1048576_1_0)

end Cert.HostTerms.R

end
-- ==== Proof.KEntry.lean ====
/-
  The arrays the packed kernel is launched on, as the region finds them, are the functions of the argument arrays
  named in HostTerms: the input viewed as [32768, 384], the two block-diagonal weights and the bias row.
-/
import proofs.«107644_g2000702263430979_pallasbulk_829_7_alg».proof.Proof.Gen.KernelIdeal.Frame
import proofs.«107644_g2000702263430979_pallasbulk_829_7_alg».proof.Proof.HostTerms
import Idealize.ShloMosaic.Lib.StableHlo.Run

noncomputable section

namespace Cert.KernelIdeal.Entry

open Idealize.ShloMosaic Idealize.ShloMosaic.TcCoe Idealize.SL.Sem Cert.KernelIdeal Cert.KernelIdeal.Gen

variable (m : (ℓ : Loc nD τ sig) → Buf (Elt Ideal) ℓ) (c : Dev nD)

/-- Window 0's array: the input, 32 batch rows per row. -/
theorem V_xp : (V (F := Ideal) m c main_v23 : S32768x384.Idx → EReal)
    = Cert.HostTerms.K.xp (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Window 1's array: the first layer's block-diagonal weight. -/
theorem V_w1e : (V (F := Ideal) m c main_v7 : S384x320.Idx → EReal)
    = Cert.HostTerms.K.w1e (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 4000000 in
/-- Window 2's array: the bias row. -/
theorem V_aux : (V (F := Ideal) m c main_v22 : S1x384.Idx → EReal)
    = Cert.HostTerms.K.aux (m ((c : Thread nD τ).loc main_arg2)) (m ((c : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Window 3's array: the second layer's block-diagonal weight. -/
theorem V_w2e : (V (F := Ideal) m c main_v9 : S320x32.Idx → EReal)
    = Cert.HostTerms.K.w2e (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Entry

end
-- ==== Proof.Spec.lean ====
/-
  The specification: the two-layer perceptron at one batch row,

      mlp b = (∑ j < 10, T ((∑ k < 12, w1 j k · x b k) + b1 j) · w2 j) + b2,

  with `T` the activation (the hyperbolic tangent in both programs), over the extended reals.

  The packed kernel computes 32 batch rows per row of a [32768, 384] view of the input: lane `q'` of the 384 input
  lanes belongs to packed row `inBlk q' = q' / 12` and is feature `feat q' = q' % 12`; lane `q` of the 320 hidden
  lanes belongs to packed row `hidBlk q = q / 10` and is hidden unit `hid q = q % 10`; output lane `p` of row `R` is
  batch row `brow R p = 32·R + p`.
-/
import Idealize.ShloMosaic.PureOps.Ideal
import Idealize.ShloMosaic.Lib.ValueIdx

noncomputable section

namespace Cert.Spec

open Idealize.ShloMosaic

/-- The perceptron at batch row `b`. -/
def mlp (T : EReal → EReal) (x : Fin 1048576 → Fin 12 → EReal) (w1 : Fin 10 → Fin 12 → EReal) (b1 w2 : Fin 10 → EReal)
    (b2 : EReal) (b : Fin 1048576) : EReal :=
  (∑ j : Fin 10, T ((∑ k : Fin 12, w1 j k * x b k) + b1 j) * w2 j) + b2

/-- The packed row an input lane belongs to. -/
def inBlk (q' : Fin 384) : Fin 32 := ⟨q'.val / 12, by have := q'.isLt; omega⟩
/-- The feature an input lane holds. -/
def feat (q' : Fin 384) : Fin 12 := ⟨q'.val % 12, Nat.mod_lt _ (by decide)⟩
/-- The packed row a hidden lane belongs to. -/
def hidBlk (q : Fin 320) : Fin 32 := ⟨q.val / 10, by have := q.isLt; omega⟩
/-- The hidden unit a hidden lane holds. -/
def hid (q : Fin 320) : Fin 10 := ⟨q.val % 10, Nat.mod_lt _ (by decide)⟩
/-- The batch row that output lane `p` of packed row `R` is. -/
def brow (R : Fin 32768) (p : Fin 32) : Fin 1048576 := ⟨32 * R.val + p.val, by have := R.isLt; have := p.isLt; omega⟩

/-- The activation both programs apply: the ideal hyperbolic tangent. -/
abbrev T : EReal → EReal := FloatOps.tanh (F := Ideal) (φ := .f32)

end Cert.Spec

end
-- ==== Proof.KKron.lean ====
/-
  The block-diagonal weights of the packed perceptron, read entry by entry.

  The packed kernel multiplies a [32768, 384] view of the input by kron(I₃₂, w1ᵀ) of shape [384, 320] and then by
  kron(I₃₂, w2ᵀ) of shape [320, 32]. Here each of these arrays is read at one index: the identity matrix is the
  indicator of the diagonal, a Kronecker product with the identity is the indicator of "same packed row" times the
  weight at the lanes' positions inside their rows, and the view of the input is the input at the batch row and
  feature the row-major position names.
-/
import proofs.«107644_g2000702263430979_pallasbulk_829_7_alg».proof.Proof.HostTerms
import proofs.«107644_g2000702263430979_pallasbulk_829_7_alg».proof.Proof.Spec
import Idealize.ShloMosaic.Lib.Pipeline.Value
import Idealize.ShloMosaic.Lib.ValueLayout

noncomputable section

namespace Cert.HostTerms.K

open Idealize.ShloMosaic Idealize.ShloMosaic.ValueIdx Cert.KernelIdeal Cert.KernelIdeal.Facts₀

/-- The identity matrix: 1 on the diagonal, 0 elsewhere. -/
theorem eye_apply (a b : Fin 32) : eye (ix2 a b) = if a = b then (1 : EReal) else 0 := by
  -- the entry is the comparison bit of the row number (plus a zero) and the column number, converted to a real
  have h : eye (ix2 a b)
      = (((IntOp.cmpi .eq (IntOp.addi (BitVec.ofNat 32 a.val) 0#32) (BitVec.ofNat 32 b.val)).toNat : ℝ) : EReal) := rfl
  rw [h]
  have hadd : IntOp.addi (BitVec.ofNat 32 a.val) 0#32 = BitVec.ofNat 32 a.val := by
    simp [IntOp.addi]
  rw [hadd]
  by_cases hab : a = b
  · subst hab
    rw [if_pos rfl]
    simp [IntOp.cmpi]
  · rw [if_neg hab]
    -- two numbers below 32 have different 32-bit words
    have hne : BitVec.ofNat 32 a.val ≠ BitVec.ofNat 32 b.val := by
      intro heq
      apply hab
      have := congrArg BitVec.toNat heq
      simp only [BitVec.toNat_ofNat] at this
      have ha := a.isLt
      have hb := b.isLt
      apply Fin.ext
      omega
    simp [IntOp.cmpi, hne]

/-- The first layer's block-diagonal weight: entry (input lane q', hidden lane q) is w1 (hid q) (feat q') when the two
    lanes belong to the same packed row, else 0. -/
theorem w1e_apply (w1 : FVec Ideal S10x12 .f32) (q' : Fin 384) (q : Fin 320) :
    w1e w1 (ix2 q' q) = (if Cert.Spec.inBlk q' = Cert.Spec.hidBlk q then (1 : EReal) else 0)
      * w1 (ix2 (Cert.Spec.hid q) (Cert.Spec.feat q')) := by
  unfold w1e
  -- lane q' = 12·p' + k and lane q = 10·p + j: the entry is the rank-4 product at (p', k, p, j)
  refine (shapeCast_apply _ _ (ix2 q' q)
    (ix4 (Cert.Spec.inBlk q') (Cert.Spec.feat q') (Cert.Spec.hidBlk q) (Cert.Spec.hid q)) ?_).trans ?_
  · rw [Shape.rowMajor_val_four, Shape.rowMajor_val_two]
    show (((q'.val / 12) * 12 + q'.val % 12) * 32 + q.val / 10) * 10 + q.val % 10 = q'.val * 320 + q.val
    have h1 := Nat.div_add_mod q'.val 12
    have h2 := Nat.div_add_mod q.val 10
    omega
  · rw [mulf_apply]
    -- the identity's factor does not depend on k and j
    have hE : broadcastInDim S32x12x32x10 ![0, 1, 2, 3] bcast_S32x1x32x1_S32x12x32x10_0_1_2_3
          (broadcastInDim S32x1x32x1 ![0, 2] bcast_S32x32_S32x1x32x1_0_2 eye)
          (ix4 (Cert.Spec.inBlk q') (Cert.Spec.feat q') (Cert.Spec.hidBlk q) (Cert.Spec.hid q))
        = eye (ix2 (Cert.Spec.inBlk q') (Cert.Spec.hidBlk q)) := by
      refine (broadcastInDim_apply _ _ _ _
        (ix4 (Cert.Spec.inBlk q') (0 : Fin 1) (Cert.Spec.hidBlk q) (0 : Fin 1)) ?_).trans ?_
      · intro a
        match a with
        | ⟨0, _⟩ => rfl
        | ⟨1, _⟩ => rfl
        | ⟨2, _⟩ => rfl
        | ⟨3, _⟩ => rfl
      · refine broadcastInDim_apply _ _ _ _ (ix2 (Cert.Spec.inBlk q') (Cert.Spec.hidBlk q)) ?_
        intro a
        match a with
        | ⟨0, _⟩ => rfl
        | ⟨1, _⟩ => rfl
    -- the weight's factor does not depend on p' and p
    have hW : broadcastInDim S32x12x32x10 ![0, 1, 2, 3] bcast_S1x12x1x10_S32x12x32x10_0_1_2_3
          (broadcastInDim S1x12x1x10 ![1, 3] bcast_S12x10_S1x12x1x10_1_3
            (transpose S12x10 [1, 0] w1 transposes_S10x12_S12x10_1_0))
          (ix4 (Cert.Spec.inBlk q') (Cert.Spec.feat q') (Cert.Spec.hidBlk q) (Cert.Spec.hid q))
        = w1 (ix2 (Cert.Spec.hid q) (Cert.Spec.feat q')) := by
      refine (broadcastInDim_apply _ _ _ _
        (ix4 (0 : Fin 1) (Cert.Spec.feat q') (0 : Fin 1) (Cert.Spec.hid q)) ?_).trans ?_
      · intro a
        match a with
        | ⟨0, _⟩ => rfl
        | ⟨1, _⟩ => rfl
        | ⟨2, _⟩ => rfl
        | ⟨3, _⟩ => rfl
      · refine (broadcastInDim_apply _ _ _ _ (ix2 (Cert.Spec.feat q') (Cert.Spec.hid q)) ?_).trans ?_
        · intro a
          match a with
          | ⟨0, _⟩ => rfl
          | ⟨1, _⟩ => rfl
        · exact transpose_ix2_apply w1 transposes_S10x12_S12x10_1_0 (Cert.Spec.feat q') (Cert.Spec.hid q)
    rw [hE, hW, eye_apply]

/-- The second layer's block-diagonal weight: entry (hidden lane q, output lane p) is w2 (hid q) when q belongs to packed
    row p, else 0. -/
theorem w2e_apply (w2 : FVec Ideal S1x10 .f32) (q : Fin 320) (p : Fin 32) :
    w2e w2 (ix2 q p) = (if Cert.Spec.hidBlk q = p then (1 : EReal) else 0) * w2 (ix2 (0 : Fin 1) (Cert.Spec.hid q)) := by
  unfold w2e
  -- lane q = 10·p' + j: the entry is the rank-4 product at (p', j, p, 0)
  refine (shapeCast_apply _ _ (ix2 q p)
    (ix4 (Cert.Spec.hidBlk q) (Cert.Spec.hid q) p (0 : Fin 1)) ?_).trans ?_
  · rw [Shape.rowMajor_val_four, Shape.rowMajor_val_two]
    show (((q.val / 10) * 10 + q.val % 10) * 32 + p.val) * 1 + 0 = q.val * 32 + p.val
    have h2 := Nat.div_add_mod q.val 10
    omega
  · rw [mulf_apply]
    -- the identity's factor does not depend on j
    have hE : broadcastInDim S32x10x32x1 ![0, 1, 2, 3] bcast_S32x1x32x1_S32x10x32x1_0_1_2_3
          (broadcastInDim S32x1x32x1 ![0, 2] bcast_S32x32_S32x1x32x1_0_2 eye)
          (ix4 (Cert.Spec.hidBlk q) (Cert.Spec.hid q) p (0 : Fin 1))
        = eye (ix2 (Cert.Spec.hidBlk q) p) := by
      refine (broadcastInDim_apply _ _ _ _
        (ix4 (Cert.Spec.hidBlk q) (0 : Fin 1) p (0 : Fin 1)) ?_).trans ?_
      · intro a
        match a with
        | ⟨0, _⟩ => rfl
        | ⟨1, _⟩ => rfl
        | ⟨2, _⟩ => rfl
        | ⟨3, _⟩ => rfl
      · refine broadcastInDim_apply _ _ _ _ (ix2 (Cert.Spec.hidBlk q) p) ?_
        intro a
        match a with
        | ⟨0, _⟩ => rfl
        | ⟨1, _⟩ => rfl
    -- the weight's factor does not depend on p' and p
    have hW : broadcastInDim S32x10x32x1 ![0, 1, 2, 3] bcast_S1x10x1x1_S32x10x32x1_0_1_2_3
          (broadcastInDim S1x10x1x1 ![1, 3] bcast_S10x1_S1x10x1x1_1_3
            (shapeCast S10x1 w2 shapeCasts_S1x10_S10x1))
          (ix4 (Cert.Spec.hidBlk q) (Cert.Spec.hid q) p (0 : Fin 1))
        = w2 (ix2 (0 : Fin 1) (Cert.Spec.hid q)) := by
      refine (broadcastInDim_apply _ _ _ _
        (ix4 (0 : Fin 1) (Cert.Spec.hid q) (0 : Fin 1) (0 : Fin 1)) ?_).trans ?_
      · intro a
        match a with
        | ⟨0, _⟩ => rfl
        | ⟨1, _⟩ => rfl
        | ⟨2, _⟩ => rfl
        | ⟨3, _⟩ => rfl
      · refine (broadcastInDim_apply _ _ _ _ (ix2 (Cert.Spec.hid q) (0 : Fin 1)) ?_).trans ?_
        · intro a
          match a with
          | ⟨0, _⟩ => rfl
          | ⟨1, _⟩ => rfl
        · -- the column [10, 1] is the row [1, 10] at the same position
          refine shapeCast_apply _ _ _ (ix2 (0 : Fin 1) (Cert.Spec.hid q)) ?_
          rw [Shape.rowMajor_val_two, Shape.rowMajor_val_two]
          show 0 * 10 + q.val % 10 = (q.val % 10) * 1 + 0
          omega
    rw [hE, hW, eye_apply]

/-- The input viewed as [32768, 384]: lane q' of row R is feature (feat q') of batch row 32·R + inBlk q'. -/
theorem xp_apply (x : FVec Ideal S1048576x12 .f32) (R : Fin 32768) (q' : Fin 384) :
    xp x (ix2 R q') = x (ix2 (Cert.Spec.brow R (Cert.Spec.inBlk q')) (Cert.Spec.feat q')) := by
  unfold xp
  -- both indices name row-major position 384·R + q'
  refine shapeCast_apply _ _ (ix2 R q') (ix2 (Cert.Spec.brow R (Cert.Spec.inBlk q')) (Cert.Spec.feat q')) ?_
  rw [Shape.rowMajor_val_two, Shape.rowMajor_val_two]
  show (32 * R.val + q'.val / 12) * 12 + q'.val % 12 = R.val * 384 + q'.val
  have h1 := Nat.div_add_mod q'.val 12
  omega

end Cert.HostTerms.K

end
-- ==== Proof.LibScatterAt.lean ====
/-
  A scatter whose body returns the update (jax's `x.at[…].set(v)`), read at ONE index of its result.

  The scatter is a left fold over the update indices: update index `j` lands at the operand index
  `d.resultIdx? j idx` (when that is inside the operand) and replaces the entry there by `upd j`.
  So an entry that exactly one update index lands on holds that update (`scatter_set_hit`), and an entry no
  update index lands on keeps the operand's value (`scatter_set_miss`).
-/
import Idealize.ShloMosaic.PureOps.ShapeOps

namespace Idealize.ShloMosaic.LibScatterAt

variable {α : Type} {s si u : Shape} {w : Nat}

/-- One step of the fold: update number `n` (row-major) written into `r`. -/
def step (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step that lands elsewhere (or nowhere) leaves entry `i` alone. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hres : d.resultIdx? (u.rowMajor.symm n) idx with
  | none => rfl
  | some i₁ =>
    have hne : i ≠ i₁ := fun e => h (by rw [hres, e])
    simp only [if_neg hne]

/-- A step that lands on `i` leaves the update there. -/
theorem step_of_eq (d : ScatterDims s si u) (idx : IVec si w) (upd : u.Idx → α) (r : s.Idx → α) (n : Fin u.numel)
    (i : s.Idx) (h : d.resultIdx? (u.rowMajor.symm n) idx = some i) : step d idx upd r n i = upd (u.rowMajor.symm n) := by
  unfold step
  rw [h]
  exact if_pos rfl

theorem foldl_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (step d idx upd) r i = r i
  | [], _, _ => rfl
  | n :: l, r, h => by
    rw [List.foldl_cons, foldl_miss d idx upd i l _ (fun n' hn' => h n' (List.mem_cons_of_mem _ hn')),
      step_of_ne d idx upd r n i (h n List.mem_cons_self)]

theorem foldl_hit (d : ScatterDims s si u) (idx : IVec si w) (upd : u.Idx → α) (i : s.Idx) (n₀ : Fin u.numel)
    (h0 : d.resultIdx? (u.rowMajor.symm n₀) idx = some i) :
    ∀ (l : List (Fin u.numel)) (r : s.Idx → α),
      (∀ n ∈ l, d.resultIdx? (u.rowMajor.symm n) idx = some i → n = n₀) →
      (r i = upd (u.rowMajor.symm n₀) ∨ n₀ ∈ l) →
      l.foldl (step d idx upd) r i = upd (u.rowMajor.symm n₀)
  | [], r, _, hr => by
    rcases hr with hr | hr
    · exact hr
    · exact absurd hr List.not_mem_nil
  | n :: l, r, huniq, hr => by
    rw [List.foldl_cons]
    refine foldl_hit d idx upd i n₀ h0 l _ (fun n' hn' => huniq n' (List.mem_cons_of_mem _ hn')) ?_
    by_cases hn : d.resultIdx? (u.rowMajor.symm n) idx = some i
    · have e : n = n₀ := huniq n List.mem_cons_self hn
      left; rw [step_of_eq d idx upd r n i hn, e]
    · rw [step_of_ne d idx upd r n i hn]
      rcases hr with hr | hr
      · exact Or.inl hr
      · rcases List.mem_cons.mp hr with e | hm
        · exact absurd (e ▸ h0) hn
        · exact Or.inr hm

/-- An entry no update index lands on keeps the operand's value. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_eq_foldl]
  exact foldl_miss d idx upd i _ x (fun n _ => h _)

/-- An entry exactly one update index `j₀` lands on holds `upd j₀`. -/
theorem scatter_set_hit (d : ScatterDims s si u) (x : s.Idx → α) (idx : IVec si w) (upd : u.Idx → α) (i : s.Idx) (j₀ : u.Idx)
    (h0 : d.resultIdx? j₀ idx = some i) (huniq : ∀ j : u.Idx, d.resultIdx? j idx = some i → j = j₀) :
    Host.scatter d (fun _ b => b) x idx upd i = upd j₀ := by
  rw [scatter_eq_foldl]
  have e : u.rowMajor.symm (u.rowMajor j₀) = j₀ := Equiv.symm_apply_apply _ _
  have := foldl_hit d idx upd i (u.rowMajor j₀) (by rw [e]; exact h0) (List.finRange u.numel) x
    (fun n _ hn => by rw [← huniq _ hn]; exact (Equiv.apply_symm_apply _ _).symm) (Or.inr (List.mem_finRange _))
  rw [this, e]

end Idealize.ShloMosaic.LibScatterAt
-- ==== Proof.KAux.lean ====
/-
  The kernel's bias row at an entry.

  The row [1, 384] is built by two writes over zeros: first the 320-vector "b1 repeated 32 times" at row 0,
  lanes 0..319; then the single number b2 at entry (0, 320). Each write sends update index j to the entry
  start + window(j); for these two writes the start is a literal pair and the window is j itself (first write)
  or empty (second write), so the landing entry is computed in closed form, and an entry of the row is read off
  the one write that lands on it.
-/
import proofs.«107644_g2000702263430979_pallasbulk_829_7_alg».proof.Proof.HostTerms
import proofs.«107644_g2000702263430979_pallasbulk_829_7_alg».proof.Proof.LibScatterAt
import Idealize.ShloMosaic.Lib.Pipeline.Value
import Idealize.ShloMosaic.Lib.ValueLayout
noncomputable section
namespace Cert.HostTerms.K
open Idealize.ShloMosaic Idealize.ShloMosaic.LibScatterAt Cert.KernelIdeal Cert.KernelIdeal.Facts₀

open Idealize.ShloMosaic.ValueIdx

namespace AuxRow

/-- The index vector of the first write: start (0, 0). -/
abbrev idxIn : IVec S2 32 :=
  concatenate S2 0
    [⟨S1, broadcastInDim S1 ![] bcast_S_S1 (constantI S_ 32 0#32)⟩,
      ⟨S1, broadcastInDim S1 ![] bcast_S_S1 (constantI S_ 32 0#32)⟩]
    concatenates_S1_S1_S2_d0

/-- The index vector of the second write: start (0, 320). -/
abbrev idxOut : IVec S2 32 :=
  concatenate S2 0
    [⟨S1, broadcastInDim S1 ![] bcast_S_S1 (constantI S_ 32 0#32)⟩,
      ⟨S1, broadcastInDim S1 ![] bcast_S_S1 (constantI S_ 32 320#32)⟩]
    concatenates_S1_S1_S2_d0

/-! ### The first write: a 320-vector at row 0, lanes 0..319 -/

/-- Its window starts at 0 on both axes (the index vector's two entries are 0). -/
theorem in_start (j : S320.Idx) (a : Fin 2) : scatter_S1x384_S2_S320_0_0_01_0.start j idxIn a = 0 := by
  match a with
  | ⟨0, _⟩ => rfl
  | ⟨1, _⟩ => rfl

/-- Axis 0 is an inserted axis: window coordinate 0. -/
theorem in_window0 (j : S320.Idx) : scatter_S1x384_S2_S320_0_0_01_0.window j (0 : Fin 2) = 0 := rfl
/-- Axis 1 carries the update's one axis. -/
theorem in_window1 (j : S320.Idx) : scatter_S1x384_S2_S320_0_0_01_0.window j (1 : Fin 2) = (j 0).val := rfl

/-- Update index `j` lands at entry (0, j). -/
theorem in_resultIdx (j : S320.Idx) :
    scatter_S1x384_S2_S320_0_0_01_0.resultIdx? j idxIn
      = some (ix2 (0 : Fin 1) (⟨(j 0).val, Nat.lt_of_lt_of_le (j 0).isLt (by decide)⟩ : Fin 384)) := by
  have hj : (j 0).val < 320 := (j 0).isLt
  have h : ∀ a : Fin 2, 0 ≤ scatter_S1x384_S2_S320_0_0_01_0.start j idxIn a + scatter_S1x384_S2_S320_0_0_01_0.window j a ∧
      scatter_S1x384_S2_S320_0_0_01_0.start j idxIn a + scatter_S1x384_S2_S320_0_0_01_0.window j a < S1x384.size a := by
    intro a
    rw [in_start]
    match a with
    | ⟨0, _⟩ =>
      show (0 : Int) ≤ 0 + ((scatter_S1x384_S2_S320_0_0_01_0.window j (0 : Fin 2) : Nat) : Int) ∧
        (0 : Int) + ((scatter_S1x384_S2_S320_0_0_01_0.window j (0 : Fin 2) : Nat) : Int) < ((1 : Nat) : Int)
      rw [in_window0]; omega
    | ⟨1, _⟩ =>
      show (0 : Int) ≤ 0 + ((scatter_S1x384_S2_S320_0_0_01_0.window j (1 : Fin 2) : Nat) : Int) ∧
        (0 : Int) + ((scatter_S1x384_S2_S320_0_0_01_0.window j (1 : Fin 2) : Nat) : Int) < ((384 : Nat) : Int)
      rw [in_window1]; omega
  unfold ScatterDims.resultIdx?
  rw [dif_pos h]
  congr 1
  funext a
  apply Fin.ext
  match a with
  | ⟨0, _⟩ =>
    show (scatter_S1x384_S2_S320_0_0_01_0.start j idxIn (0 : Fin 2) + ((scatter_S1x384_S2_S320_0_0_01_0.window j (0 : Fin 2) : Nat) : Int)).toNat = 0
    rw [in_start, in_window0]; rfl
  | ⟨1, _⟩ =>
    show (scatter_S1x384_S2_S320_0_0_01_0.start j idxIn (1 : Fin 2) + ((scatter_S1x384_S2_S320_0_0_01_0.window j (1 : Fin 2) : Nat) : Int)).toNat = (j 0).val
    rw [in_start, in_window1]; omega

/-! ### The second write: one number at entry (0, 320) -/

theorem out_start0 (j : S_.Idx) : scatter_S1x384_S2_S__n_01_01_0.start j idxOut (0 : Fin 2) = 0 := rfl
theorem out_start1 (j : S_.Idx) : scatter_S1x384_S2_S__n_01_01_0.start j idxOut (1 : Fin 2) = 320 := rfl
/-- Both axes are inserted axes: window coordinate 0. -/
theorem out_window (j : S_.Idx) (a : Fin 2) : scatter_S1x384_S2_S__n_01_01_0.window j a = 0 := by
  match a with
  | ⟨0, _⟩ => rfl
  | ⟨1, _⟩ => rfl

/-- The one update index lands at entry (0, 320). -/
theorem out_resultIdx (j : S_.Idx) :
    scatter_S1x384_S2_S__n_01_01_0.resultIdx? j idxOut
      = some (ix2 (0 : Fin 1) (⟨320, by decide⟩ : Fin 384)) := by
  have h : ∀ a : Fin 2, 0 ≤ scatter_S1x384_S2_S__n_01_01_0.start j idxOut a + scatter_S1x384_S2_S__n_01_01_0.window j a ∧
      scatter_S1x384_S2_S__n_01_01_0.start j idxOut a + scatter_S1x384_S2_S__n_01_01_0.window j a < S1x384.size a := by
    intro a
    rw [out_window]
    match a with
    | ⟨0, _⟩ =>
      show (0 : Int) ≤ scatter_S1x384_S2_S__n_01_01_0.start j idxOut (0 : Fin 2) + ((0 : Nat) : Int) ∧
        scatter_S1x384_S2_S__n_01_01_0.start j idxOut (0 : Fin 2) + ((0 : Nat) : Int) < ((1 : Nat) : Int)
      rw [out_start0]; omega
    | ⟨1, _⟩ =>
      show (0 : Int) ≤ scatter_S1x384_S2_S__n_01_01_0.start j idxOut (1 : Fin 2) + ((0 : Nat) : Int) ∧
        scatter_S1x384_S2_S__n_01_01_0.start j idxOut (1 : Fin 2) + ((0 : Nat) : Int) < ((384 : Nat) : Int)
      rw [out_start1]; omega
  unfold ScatterDims.resultIdx?
  rw [dif_pos h]
  congr 1
  funext a
  apply Fin.ext
  match a with
  | ⟨0, _⟩ =>
    show (scatter_S1x384_S2_S__n_01_01_0.start j idxOut (0 : Fin 2) + ((scatter_S1x384_S2_S__n_01_01_0.window j (0 : Fin 2) : Nat) : Int)).toNat = 0
    rw [out_start0, out_window]; rfl
  | ⟨1, _⟩ =>
    show (scatter_S1x384_S2_S__n_01_01_0.start j idxOut (1 : Fin 2) + ((scatter_S1x384_S2_S__n_01_01_0.window j (1 : Fin 2) : Nat) : Int)).toNat = 320
    rw [out_start1, out_window]; rfl

end AuxRow

open AuxRow

/-! ### The bias row at an entry -/

/-- Lanes 0..319 of the bias row hold b1, tiled: lane q holds b1 (q % 10). -/
theorem aux_lo (b1 : FVec Ideal S10 .f32) (b2 : FVec Ideal S1 .f32) (q : Fin 384) (h : q.val < 320) :
    aux b1 b2 (ix2 (0 : Fin 1) q) = b1 (ix1 (⟨q.val % 10, Nat.mod_lt _ (by decide)⟩ : Fin 10)) := by
  unfold aux
  -- the second write lands at lane 320 only
  rw [scatter_set_miss _ _ _ _ _ (fun j => by
    rw [out_resultIdx]
    intro e
    have e1 : (⟨320, by decide⟩ : Fin 384) = q := congrFun (Option.some.inj e) (1 : Fin 2)
    have e2 := congrArg Fin.val e1
    simp only at e2
    omega)]
  -- the first write lands on lane q from update index q, and from no other
  rw [scatter_set_hit _ _ _ _ _ (ix1 (⟨q.val, h⟩ : Fin 320)) (by
      rw [in_resultIdx]) (fun j hj => by
      rw [in_resultIdx] at hj
      have e1 : (⟨(j 0).val, _⟩ : Fin 384) = q := congrFun (Option.some.inj hj) (1 : Fin 2)
      have e2 : (j 0).val = q.val := congrArg Fin.val e1
      rw [eq_ix1 j]
      exact congrArg ix1 (Fin.ext e2))]
  -- the update: b1 as a [1, 10] row, repeated over 32 rows, flattened
  have hq : q.val / 10 < 32 := by omega
  refine (shapeCast_apply _ shapeCasts_S32x10_S320 _
    (ix2 (⟨q.val / 10, hq⟩ : Fin 32) (⟨q.val % 10, Nat.mod_lt _ (by decide)⟩ : Fin 10)) ?_).trans ?_
  · rw [Shape.rowMajor_val_two, Shape.rowMajor_val_one]
    show q.val / 10 * 10 + q.val % 10 = q.val
    omega
  refine (broadcastInDim_apply _ bcast_S1x10_S32x10_0_1 _ _
    (ix2 (0 : Fin 1) (⟨q.val % 10, Nat.mod_lt _ (by decide)⟩ : Fin 10)) ?_).trans ?_
  · intro a
    match a with
    | ⟨0, _⟩ => rfl
    | ⟨1, _⟩ => rfl
  exact shapeCast_a_1a_apply b1 shapeCasts_S10_S1x10 0 _

/-- Lane 320 of the bias row holds b2. -/
theorem aux_b2 (b1 : FVec Ideal S10 .f32) (b2 : FVec Ideal S1 .f32) :
    aux b1 b2 (ix2 (0 : Fin 1) (⟨320, by decide⟩ : Fin 384)) = b2 (ix1 (0 : Fin 1)) := by
  unfold aux
  rw [scatter_set_hit _ _ _ _ _ ix0 (out_resultIdx _) (fun j _ => eq_ix0 j)]
  refine shapeCast_apply b2 shapeCasts_S1_S_ _ (ix1 (0 : Fin 1)) ?_
  rw [Shape.rowMajor_val_one]
  exact (Shape.rowMajorPi_zero _ _).symm

end Cert.HostTerms.K
end
-- ==== Proof.Algebra.lean ====
/-
  Extended-real algebra for the packed perceptron: a block-diagonal weight, written as an indicator times the
  weight, kills every off-block term of a contraction, so a sum over all packed lanes collapses to the sum over the
  lanes of one packed row.  Over the extended reals `0 * a = 0 = a * 0` for every `a` (the infinities included), so
  no finiteness hypothesis is needed.
-/
import proofs.«107644_g2000702263430979_pallasbulk_829_7_alg».proof.Proof.Spec
noncomputable section
namespace Cert.Spec
open Idealize.ShloMosaic

/-- A sum over a family indexed by pairs (block, offset) that vanishes off block `p` is the sum over block `p`. -/
theorem sum_block {M ι α β : Type} [AddCommMonoid M] [Fintype ι] [Fintype α] [Fintype β] [DecidableEq α]
    (e : α × β ≃ ι) (g : ι → M) (p : α) (h0 : ∀ (a : α) (b : β), a ≠ p → g (e (a, b)) = 0) :
    ∑ q : ι, g q = ∑ b : β, g (e (p, b)) := by
  rw [← Equiv.sum_comp e g, Fintype.sum_prod_type]
  rw [Finset.sum_eq_single p]
  · intro a _ hne
    exact Finset.sum_eq_zero (fun b _ => h0 a b hne)
  · intro h; exact absurd (Finset.mem_univ p) h

/-- Input lane `12·a + k`: feature `k` of packed row `a`. -/
def inLane : Fin 32 × Fin 12 ≃ Fin 384 := finProdFinEquiv
/-- Hidden lane `10·a + j`: hidden unit `j` of packed row `a`. -/
def hidLane : Fin 32 × Fin 10 ≃ Fin 320 := finProdFinEquiv

theorem inLane_val (a : Fin 32) (k : Fin 12) : (inLane (a, k)).val = k.val + 12 * a.val := rfl
theorem hidLane_val (a : Fin 32) (j : Fin 10) : (hidLane (a, j)).val = j.val + 10 * a.val := rfl

theorem inBlk_inLane (a : Fin 32) (k : Fin 12) : inBlk (inLane (a, k)) = a := by
  apply Fin.ext
  have hk := k.isLt
  simp only [inBlk, inLane_val]
  omega

theorem feat_inLane (a : Fin 32) (k : Fin 12) : feat (inLane (a, k)) = k := by
  apply Fin.ext
  have hk := k.isLt
  simp only [feat, inLane_val]
  omega

theorem hidBlk_hidLane (a : Fin 32) (j : Fin 10) : hidBlk (hidLane (a, j)) = a := by
  apply Fin.ext
  have hj := j.isLt
  simp only [hidBlk, hidLane_val]
  omega

theorem hid_hidLane (a : Fin 32) (j : Fin 10) : hid (hidLane (a, j)) = j := by
  apply Fin.ext
  have hj := j.isLt
  simp only [hid, hidLane_val]
  omega

/-- The packed computation at output lane p of packed row R is the perceptron at batch row 32·R + p: in the first layer
    only the twelve input lanes of packed row (hidBlk q) survive the block-diagonal weight, in the second only the ten
    hidden lanes of packed row p. -/
theorem packed_eq_mlp (T : EReal → EReal) (x : Fin 1048576 → Fin 12 → EReal) (w1 : Fin 10 → Fin 12 → EReal)
    (b1 w2 : Fin 10 → EReal) (b2 : EReal) (R : Fin 32768) (p : Fin 32) :
    (∑ q : Fin 320,
        T ((∑ q' : Fin 384, x (brow R (inBlk q')) (feat q') * ((if inBlk q' = hidBlk q then (1 : EReal) else 0) * w1 (hid q) (feat q')))
            + b1 (hid q))
          * ((if hidBlk q = p then (1 : EReal) else 0) * w2 (hid q)))
      + b2
    = mlp T x w1 b1 w2 b2 (brow R p) := by
  unfold mlp
  refine congrArg (· + b2) ?_
  -- second layer: only the hidden lanes of packed row `p` survive
  refine (sum_block hidLane _ p ?_).trans ?_
  · intro a j hne
    rw [hidBlk_hidLane, if_neg hne, zero_mul, mul_zero]
  refine Finset.sum_congr rfl fun j _ => ?_
  rw [hidBlk_hidLane, hid_hidLane, if_pos rfl, one_mul]
  refine congrArg (fun s => T (s + b1 j) * w2 j) ?_
  -- first layer: only the input lanes of packed row `p` survive
  refine (sum_block inLane _ p ?_).trans ?_
  · intro a k hne
    rw [inBlk_inLane, if_neg hne, zero_mul, mul_zero]
  refine Finset.sum_congr rfl fun k _ => ?_
  rw [inBlk_inLane, feat_inLane, if_pos rfl, one_mul, mul_comm]

end Cert.Spec
end
-- ==== Proof.Result.lean ====
/-
  The result both programs compute, as ONE function of the five argument arrays: entry (b, 0) of the [1048576, 1]
  result is the perceptron at batch row b.
-/
import proofs.«107644_g2000702263430979_pallasbulk_829_7_alg».proof.Proof.Spec

noncomputable section

namespace Cert.Spec

open Idealize.ShloMosaic Idealize.ShloMosaic.ValueIdx

/-- The result array: the perceptron of the input `X`, the first layer `W1`, `B1` and the second layer `W2`, `B2`,
    batch row by batch row. -/
def G (X : (⟨2, ![1048576, 12]⟩ : Shape).Idx → EReal) (W1 : (⟨2, ![10, 12]⟩ : Shape).Idx → EReal)
    (B1 : (⟨1, ![10]⟩ : Shape).Idx → EReal) (W2 : (⟨2, ![1, 10]⟩ : Shape).Idx → EReal) (B2 : (⟨1, ![1]⟩ : Shape).Idx → EReal) :
    (⟨2, ![1048576, 1]⟩ : Shape).Idx → EReal := fun i =>
  mlp T (fun b k => X (ix2 b k)) (fun j k => W1 (ix2 j k)) (fun j => B1 (ix1 j)) (fun j => W2 (ix2 (0 : Fin 1) j))
    (B2 (ix1 (0 : Fin 1))) (i 0)

end Cert.Spec

end
-- ==== Proof.KValue.lean ====
/-
  The packed kernel's result is the perceptron.

  The kernel's output array [32768, 32], computed from the packed input, the block-diagonal weights and the bias row,
  holds at (R, p) the perceptron at batch row 32·R + p: the block-diagonal weights multiply every lane of another packed
  row by 0, and over the extended reals 0 · a = 0 for every a. The final reshape to [1048576, 1] reads entry (b, 0) at
  (b / 32, b % 32), which is batch row b.
-/
import proofs.«107644_g2000702263430979_pallasbulk_829_7_alg».proof.Proof.KArray
import proofs.«107644_g2000702263430979_pallasbulk_829_7_alg».proof.Proof.KKron
import proofs.«107644_g2000702263430979_pallasbulk_829_7_alg».proof.Proof.KAux
import proofs.«107644_g2000702263430979_pallasbulk_829_7_alg».proof.Proof.Algebra
import proofs.«107644_g2000702263430979_pallasbulk_829_7_alg».proof.Proof.Result

noncomputable section

namespace Cert.KernelIdeal.Bridge

open Idealize.ShloMosaic Idealize.ShloMosaic.ValueIdx Cert.KernelIdeal Cert.KernelIdeal.Facts₀
open Cert.HostTerms

variable (X : FVec Ideal S1048576x12 .f32) (W1 : FVec Ideal S10x12 .f32) (B1 : FVec Ideal S10 .f32)
  (W2 : FVec Ideal S1x10 .f32) (B2 : FVec Ideal S1 .f32)

/-- Entry (R, p) of the kernel's output array is the perceptron at batch row 32·R + p. -/
theorem arr_eq (R : Fin 32768) (p : Fin 32) :
    Cert.KernelIdeal.Array.arr (K.xp X) (K.w1e W1) (K.aux B1 B2) (K.w2e W2) (ix2 R p)
      = Cert.Spec.mlp Cert.Spec.T (fun b k => X (ix2 b k)) (fun j k => W1 (ix2 j k)) (fun j => B1 (ix1 j))
          (fun j => W2 (ix2 (0 : Fin 1) j)) (B2 (ix1 (0 : Fin 1))) (Cert.Spec.brow R p) := by
  show (∑ q : Fin 320,
      Cert.Spec.T ((∑ q' : Fin 384, K.xp X (ix2 R q') * K.w1e W1 (ix2 q' q))
          + K.aux B1 B2 (ix2 (0 : Fin 1) (Fin.castLE (by decide : 320 ≤ 384) q)))
        * K.w2e W2 (ix2 q p))
    + K.aux B1 B2 (ix2 (0 : Fin 1) (⟨320, by decide⟩ : Fin 384)) = _
  have h1 : ∀ q : Fin 320, K.aux B1 B2 (ix2 (0 : Fin 1) (Fin.castLE (by decide : 320 ≤ 384) q)) = B1 (ix1 (Cert.Spec.hid q)) :=
    fun q => K.aux_lo B1 B2 (Fin.castLE (by decide : 320 ≤ 384) q) q.isLt
  rw [K.aux_b2]
  simp only [K.xp_apply, K.w1e_apply, K.w2e_apply, h1]
  exact Cert.Spec.packed_eq_mlp Cert.Spec.T (fun b k => X (ix2 b k)) (fun j k => W1 (ix2 j k)) (fun j => B1 (ix1 j))
    (fun j => W2 (ix2 (0 : Fin 1) j)) (B2 (ix1 (0 : Fin 1))) R p

/-- The kernel's result array, the output array reshaped to [1048576, 1], is the perceptron row by row. -/
theorem result_eq :
    shapeCast S1048576x1 (Cert.KernelIdeal.Array.arr (K.xp X) (K.w1e W1) (K.aux B1 B2) (K.w2e W2)) shapeCasts_S32768x32_S1048576x1
      = Cert.Spec.G X W1 B1 W2 B2 := by
  funext i
  have hi0 : (i 0).val < 1048576 := (i 0).isLt
  have hi1 : (i 1).val < 1 := (i 1).isLt
  refine (shapeCast_apply _ _ i
    (ix2 (⟨(i 0).val / 32, by omega⟩ : Fin 32768) (⟨(i 0).val % 32, Nat.mod_lt _ (by decide)⟩ : Fin 32)) ?_).trans ?_
  · rw [Shape.rowMajor_val_two, Shape.rowMajor_val_two]
    show (i 0).val / 32 * 32 + (i 0).val % 32 = (i 0).val * 1 + (i 1).val
    have h := Nat.div_add_mod (i 0).val 32
    omega
  · rw [arr_eq]
    show Cert.Spec.mlp _ _ _ _ _ _ _ = Cert.Spec.mlp _ _ _ _ _ _ (i 0)
    refine congrArg _ (Fin.ext ?_)
    show 32 * ((i 0).val / 32) + (i 0).val % 32 = (i 0).val
    exact Nat.div_add_mod (i 0).val 32

end Cert.KernelIdeal.Bridge

end
-- ==== Proof.KRun.lean ====
/-
  The packed kernel's run, read: every weakly fair execution terminates, the result array ends holding the perceptron
  of the argument arrays row by row, and the argument arrays end unchanged.

  After the region the program reshapes the kernel's [32768, 32] output array to [1048576, 1]; the output array is the
  function `arr` of the four arrays the kernel was launched on, and those are the host prefix's functions of the
  arguments.
-/
import proofs.«107644_g2000702263430979_pallasbulk_829_7_alg».proof.Proof.KArray
import proofs.«107644_g2000702263430979_pallasbulk_829_7_alg».proof.Proof.KEntry
import proofs.«107644_g2000702263430979_pallasbulk_829_7_alg».proof.Proof.KValue
import Idealize.ShloMosaic.Lib.StableHlo.Run

noncomputable section

namespace Cert.KernelIdeal.Run

open Idealize.ShloMosaic Idealize.ShloMosaic.ValueIdx Idealize.ShloMosaic.TcCoe Idealize.SL.Sem Cert.KernelIdeal Cert.KernelIdeal.Gen
open Cert.KernelIdeal.Facts₀

variable (m : (ℓ : Loc nD τ sig) → Buf (Elt Ideal) ℓ) (ρ : Dev nD → PrngReg)

/-- What the reshape after the region leaves in the result buffer: the output array, reshaped. -/
theorem tail (c : Dev nD) :
    (Pipeline.afterTail₀ cfgs (dats m) 0 (V0 m) [hostOps1] c main_v25 : S1048576x1.Idx → EReal)
      = shapeCast S1048576x1
          (Cert.KernelIdeal.Array.arr (V m c main_v23) (V m c main_v7) (V m c main_v22) (V m c main_v9))
          Cert.KernelIdeal.Facts₀.shapeCasts_S32768x32_S1048576x1 := by
  have e : Pipeline.withArrays (cfgs 0).spec c (V0 m c) (fun w => (dats m 0 c).arrAt w (cfgs 0).N) (Proc.devRef .tc main_v24)
      = Cert.KernelIdeal.Array.arr (V m c main_v23) (V m c main_v7) (V m c main_v22) (V m c main_v9) :=
    (Pipeline.withArrays_arr spec0 launch0.win.arr_inj c _ _ 4).trans (Cert.KernelIdeal.Array.final m c)
  unfold Pipeline.afterTail₀
  show StableHlo.after hostOps1 _ (Proc.devRef .tc main_v25) = _
  after_results
  rw [e]
  rfl

/-- The result array after the run is the perceptron of the argument arrays, and the arguments are unchanged. -/
theorem run : θ_run defs (onTc (τ := τ) (main (F := Ideal))) ⟨m, fun _ => 0, ρ⟩ (fun r => ∀ c : Dev nD,
      r.2.mem ((c.tc : Thread nD τ).loc main_v25)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v25 (Pipeline.mem_restRefs_of main_v25 (by decide) (by decide))).trans ((tail m c).trans (by
        rw [Cert.KernelIdeal.Entry.V_xp, Cert.KernelIdeal.Entry.V_w1e, Cert.KernelIdeal.Entry.V_aux, Cert.KernelIdeal.Entry.V_w2e]
        exact Cert.KernelIdeal.Bridge.result_eq _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RBody.lean ====
/-
  The reference kernel's body, read at an index: from its [12, 512] input block and its [10, 15] parameter table
  (columns 0..11 the first-layer weights, column 12 the first-layer bias, column 13 the second-layer weights, row 0 of
  column 14 the second-layer bias) it leaves, at lane l of its [1, 512] output block, the two-layer perceptron of
  column l of the input block.
-/
import proofs.«107644_g2000702263430979_pallasbulk_829_7_alg».proof.Proof.Gen.ReferenceIdeal.Frame
import Idealize.ShloMosaic.Lib.ValueIdx
import Idealize.ShloMosaic.Lib.Pipeline.Value
import Idealize.ShloMosaic.Lib.ValueLayout
import Idealize.ShloMosaic.PureOps.Ideal.Laws
noncomputable section
namespace Cert.ReferenceIdeal.Body
open Idealize.ShloMosaic Cert.ReferenceIdeal Cert.ReferenceIdeal.Gen
open Idealize.ShloMosaic.ValueIdx

/-! ## The loads at an index -/

/-- Columns 0..11 of the parameter table: the first-layer weights. -/
theorem ld_w1 (x1 : Vec Ideal S10x15 .f32) (j : Fin 10) (k : Fin 12) :
    View.ld x1 r0_0 (ix2 j k) = x1 (ix2 j (Fin.castLE (by decide : 12 ≤ 15) k)) := by
  refine congrArg x1 (funext fun a => Fin.ext ?_)
  match a with
  | ⟨0, _⟩ => exact (Nat.zero_add _).trans (Nat.one_mul _)
  | ⟨1, _⟩ => exact (Nat.zero_add _).trans (Nat.one_mul _)

/-- Column 12: the first-layer bias. -/
theorem ld_b1 (x1 : Vec Ideal S10x15 .f32) (j : Fin 10) :
    View.ld x1 r0_1 (ix2 j (0 : Fin 1)) = x1 (ix2 j (⟨12, by decide⟩ : Fin 15)) := by
  refine congrArg x1 (funext fun a => Fin.ext ?_)
  match a with
  | ⟨0, _⟩ => exact (Nat.zero_add _).trans (Nat.one_mul _)
  | ⟨1, _⟩ => rfl

/-- Column 13: the second-layer weights. -/
theorem ld_w2 (x1 : Vec Ideal S10x15 .f32) (j : Fin 10) :
    View.ld x1 r0_2 (ix2 j (0 : Fin 1)) = x1 (ix2 j (⟨13, by decide⟩ : Fin 15)) := by
  refine congrArg x1 (funext fun a => Fin.ext ?_)
  match a with
  | ⟨0, _⟩ => exact (Nat.zero_add _).trans (Nat.one_mul _)
  | ⟨1, _⟩ => rfl

/-- Row 0 of column 14: the second-layer bias. -/
theorem ld_b2 (x1 : Vec Ideal S10x15 .f32) :
    View.ld x1 r0_3 (ix2 (0 : Fin 1) (0 : Fin 1)) = x1 (ix2 (0 : Fin 10) (⟨14, by decide⟩ : Fin 15)) := by
  refine congrArg x1 (funext fun a => Fin.ext ?_)
  match a with
  | ⟨0, _⟩ => rfl
  | ⟨1, _⟩ => rfl

/-- The zero origin of a whole-block access. -/
theorem origin_zero : (![0, 0] : Fin 2 → ℕ) = fun _ => 0 := by
  funext a
  match a with
  | ⟨0, _⟩ => rfl
  | ⟨1, _⟩ => rfl

/-! ## The operations of the payload at an index -/

/-- The matrix product into a zero accumulator at (j, l): the sum over the twelve features. -/
theorem matmul_at (a : FVec Ideal S10x12 .f32) (b : FVec Ideal S12x512 .f32) (j : Fin 10) (l : Fin 512) :
    matmul dot_S10x12_S12x512_S10x512_1_0_0_1_n_n none a b (constant (F := Ideal) S10x512 .f32 0x00000000#32) (ix2 j l)
      = ∑ k : Fin 12, a (ix2 j k) * b (ix2 k l) := by
  show FloatOps.matmul dot_S10x12_S12x512_S10x512_1_0_0_1_n_n none a b _ (ix2 j l) = _
  rw [Ideal.matmul_constant_zero_apply,
    ← Equiv.sum_comp (contrEquiv1 dot_S10x12_S12x512_S10x512_1_0_0_1_n_n 12 rfl rfl).symm]
  refine Finset.sum_congr rfl fun c _ => ?_
  have hc := contrEquiv1_symm_val dot_S10x12_S12x512_S10x512_1_0_0_1_n_n 12 rfl rfl c
  have hl : dot_S10x12_S12x512_S10x512_1_0_0_1_n_n.lhsIdx (ix2 j l)
      ((contrEquiv1 dot_S10x12_S12x512_S10x512_1_0_0_1_n_n 12 rfl rfl).symm c) = ix2 j c := by
    funext ax; apply Fin.ext
    match ax with
    | ⟨0, _⟩ => simp [DotDims.lhsIdx, dot_S10x12_S12x512_S10x512_1_0_0_1_n_n]; rfl
    | ⟨1, _⟩ => exact (DotDims.lhsIdx_val_of_single _ rfl _ _).trans hc
  have hr : dot_S10x12_S12x512_S10x512_1_0_0_1_n_n.rhsIdx (ix2 j l)
      ((contrEquiv1 dot_S10x12_S12x512_S10x512_1_0_0_1_n_n 12 rfl rfl).symm c) = ix2 c l := by
    funext ax; apply Fin.ext
    match ax with
    | ⟨0, _⟩ => exact (DotDims.rhsIdx_val_of_single _ rfl _ _).trans hc
    | ⟨1, _⟩ => simp [DotDims.rhsIdx, dot_S10x12_S12x512_S10x512_1_0_0_1_n_n]; rfl
  rw [hl, hr]

/-- A [10, 1] column broadcast along the lanes reads its row's entry. -/
theorem bcast_col_at (v : FVec Ideal S10x1 .f32) (h : S10x1.Broadcasts S10x512) (j : Fin 10) (l : Fin 512) :
    broadcastTo S10x512 v h (ix2 j l) = v (ix2 j (0 : Fin 1)) :=
  broadcastTo_apply v h (ix2 j l) (ix2 j (0 : Fin 1)) fun a => by
    match a with
    | ⟨0, _⟩ => rfl
    | ⟨1, _⟩ => rfl

/-- A [1, 1] scalar broadcast along the lanes reads its one entry. -/
theorem bcast_scalar_at (v : FVec Ideal S1x1 .f32) (h : S1x1.Broadcasts S1x512) (l : Fin 512) :
    broadcastTo S1x512 v h (ix2 (0 : Fin 1) l) = v (ix2 (0 : Fin 1) (0 : Fin 1)) :=
  broadcastTo_apply v h (ix2 (0 : Fin 1) l) (ix2 (0 : Fin 1) (0 : Fin 1)) fun a => by
    match a with
    | ⟨0, _⟩ => rfl
    | ⟨1, _⟩ => rfl

/-- The sum over the ten rows at lane l. -/
theorem rowsum_at (src : FVec Ideal S10x512 .f32) (h : S10x512.Reduces [0] S512) (hφ : FKind.Formats .f32)
    (hacc : (0x00000000#32 : BitVec 32) = FKind.add.neutral .f32 hφ) (l : Fin 512) :
    multiReduction (F := Ideal) .add [0] S512 src 0x00000000#32 h hφ hacc (ix1 l) = ∑ j : Fin 10, src (ix2 j l) := by
  refine (Ideal.multiReduction_add_single src 0x00000000#32 h hφ hacc (ix1 l)).trans ?_
  refine Finset.sum_congr rfl fun j _ => congrArg src ?_
  funext a; apply Fin.ext
  match a with
  | ⟨0, _⟩ => rfl
  | ⟨1, _⟩ => rfl

/-- The body's arithmetic at lane l, over the five loaded values. -/
theorem pay_apply (v0 : Vec Ideal S10x12 .f32) (v2 v4 : Vec Ideal S10x1 .f32) (v6 : Vec Ideal S1x1 .f32)
    (v8 : Vec Ideal S12x512 .f32) (l : Fin 512) :
    k0_pay1 (F := Ideal) v0 v2 v4 v6 v8 (ix2 (0 : Fin 1) l)
      = (∑ j : Fin 10,
          FloatOps.tanh (F := Ideal) (φ := .f32) ((∑ k : Fin 12, v0 (ix2 j k) * v8 (ix2 k l)) + v2 (ix2 j (0 : Fin 1)))
            * v4 (ix2 j (0 : Fin 1)))
        + v6 (ix2 (0 : Fin 1) (0 : Fin 1)) := by
  unfold k0_pay1
  simp only [shapeCast_self]
  refine (addf_apply _ _ _).trans ?_
  refine congrArg₂ (· + ·) ?_ (bcast_scalar_at v6 _ l)
  refine (shapeCast_a_1a_apply _ _ (0 : Fin 1) l).trans ?_
  refine (rowsum_at _ _ _ _ l).trans ?_
  refine Finset.sum_congr rfl fun j _ => ?_
  refine (mulf_apply _ _ _).trans ?_
  refine congrArg₂ (· * ·) ?_ (bcast_col_at v4 _ j l)
  show FloatOps.tanh (F := Ideal) (φ := .f32) _ = _
  refine congrArg (FloatOps.tanh (F := Ideal) (φ := .f32)) ?_
  refine (addf_apply _ _ _).trans ?_
  exact congrArg₂ (· + ·) (matmul_at v0 v8 j l) (bcast_col_at v2 _ j l)

/-- What the reference's body leaves at lane l of its output block, from the input block x0 and the parameter table x1. -/
theorem out_apply (x0 : Vec Ideal S12x512 .f32) (x1 : Vec Ideal S10x15 .f32) (l : Fin 512) :
    Gen.out0_2 (F := Ideal) x0 x1 (ix2 (0 : Fin 1) l)
      = (∑ j : Fin 10,
          FloatOps.tanh (F := Ideal) (φ := .f32)
              ((∑ k : Fin 12, x1 (ix2 j (Fin.castLE (by decide : 12 ≤ 15) k)) * x0 (ix2 k l)) + x1 (ix2 j (⟨12, by decide⟩ : Fin 15)))
            * x1 (ix2 j (⟨13, by decide⟩ : Fin 15)))
        + x1 (ix2 (0 : Fin 10) (⟨14, by decide⟩ : Fin 15)) := by
  unfold Gen.out0_2
  rw [View.canon_unit_zero origin_zero, View.ld_unit_zero (S := S12x512) origin_zero]
  refine (pay_apply _ _ _ _ x0 l).trans ?_
  refine congrArg₂ (· + ·) (Finset.sum_congr rfl fun j _ => ?_) (ld_b2 x1)
  refine congrArg₂ (· * ·) (congrArg (FloatOps.tanh (F := Ideal) (φ := .f32)) ?_) (ld_w2 x1 j)
  refine congrArg₂ (· + ·) (Finset.sum_congr rfl fun k _ => ?_) (ld_b1 x1 j)
  exact congrArg (· * x0 (ix2 k l)) (ld_w1 x1 j k)

end Cert.ReferenceIdeal.Body
end
-- ==== Proof.RArray.lean ====
/-
  The reference kernel's output array after the run, as ONE function of the two arrays it was launched on.

  Grid point t writes back block t of the [1, 1048576] output: lanes 512·t .. 512·t + 511. It reads block t of the
  transposed input (all 12 rows, the same lanes) and the whole parameter table. The 2048 blocks tile the output, so the
  array ends holding `arr` everywhere.
-/
import proofs.«107644_g2000702263430979_pallasbulk_829_7_alg».proof.Proof.Gen.ReferenceIdeal.Frame
import proofs.«107644_g2000702263430979_pallasbulk_829_7_alg».proof.Proof.RBody
import Idealize.ShloMosaic.Lib.ValueIdx
import Idealize.ShloMosaic.Lib.Pipeline.Value
import Idealize.ShloMosaic.PureOps.Ideal.Laws

set_option maxRecDepth 16384

noncomputable section

namespace Cert.ReferenceIdeal.Array

open Idealize.ShloMosaic Idealize.ShloMosaic.ValueIdx Idealize.ShloMosaic.TcCoe Idealize.SL.Sem Cert.ReferenceIdeal Cert.ReferenceIdeal.Gen
open Idealize.ShloMosaic.Pipeline (Dat)

/-- The output array as a function of the transposed input `xt` and the parameter table `P`: entry (0, b) is
    `(∑ j, tanh ((∑ k, P j k · xt k b) + P j 12) · P j 13) + P 0 14`. -/
def arr (xt : S12x1048576.Idx → EReal) (P : S10x15.Idx → EReal) : S1x1048576.Idx → EReal := fun i =>
  (∑ j : Fin 10,
      FloatOps.tanh (F := Ideal) (φ := .f32)
          ((∑ k : Fin 12, P (ix2 j (Fin.castLE (by decide : 12 ≤ 15) k)) * xt (ix2 k (i 1))) + P (ix2 j (⟨12, by decide⟩ : Fin 15)))
        * P (ix2 j (⟨13, by decide⟩ : Fin 15)))
    + P (ix2 (0 : Fin 10) (⟨14, by decide⟩ : Fin 15))

/-- The body's output block at any index of the block (the body lemma; the block has one row). -/
theorem out_at (x0 : Vec Ideal S12x512 .f32) (x1 : Vec Ideal S10x15 .f32) (j : S1x512.Idx) :
    Gen.out0_2 (F := Ideal) x0 x1 j
      = (∑ h : Fin 10,
          FloatOps.tanh (F := Ideal) (φ := .f32)
              ((∑ k : Fin 12, x1 (ix2 h (Fin.castLE (by decide : 12 ≤ 15) k)) * x0 (ix2 k (j 1))) + x1 (ix2 h (⟨12, by decide⟩ : Fin 15)))
            * x1 (ix2 h (⟨13, by decide⟩ : Fin 15)))
        + x1 (ix2 (0 : Fin 10) (⟨14, by decide⟩ : Fin 15)) := by
  have h0 : (j 0).val = 0 := by have := (j 0).isLt; simp at this; omega
  have hj : j = ix2 (0 : Fin 1) (j 1) := by
    funext a
    match a with
    | ⟨0, _⟩ => exact Fin.ext h0
    | ⟨1, _⟩ => rfl
  exact (congrArg (Gen.out0_2 (F := Ideal) x0 x1) hj).trans (Cert.ReferenceIdeal.Body.out_apply x0 x1 (j 1))

variable (m : (ℓ : Loc nD τ sig) → Buf (Elt Ideal) ℓ) (c : Dev nD)

/-- The printed index maps over the grid: the input's and the output's blocks move along the lanes with the grid point,
    the parameter table stays at block (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- Where an element of the input block at point t sits in the transposed input, axis by axis: the block's index
    times the block's extent plus the element's own coordinate. -/
theorem emb0_val (t : Fin cfg0.N) (y : S12x512.Idx) (a : Fin 2) :
    ((((cfg0.win 0).blk t).view.emb y) a : Nat) = win0_0.index t a * S12x512.size a + (y a : Nat) := by
  show ((((View.whole main_v15).slice (win0_0.rect t)).emb y) a : Nat) = _
  rw [View.emb_slice, Function.Embedding.trans_apply, View.emb_whole, Function.Embedding.refl_apply]
  exact Pipeline.Window.rect_emb_val win0_0 t y a

/-- The same for the output block. -/
theorem emb2_val (t : Fin cfg0.N) (y : S1x512.Idx) (a : Fin 2) :
    ((((cfg0.win 2).blk t).view.emb y) a : Nat) = win0_2.index t a * S1x512.size a + (y a : Nat) := by
  show ((((View.whole main_v16).slice (win0_2.rect t)).emb y) a : Nat) = _
  rw [View.emb_slice, Function.Embedding.trans_apply, View.emb_whole, Function.Embedding.refl_apply]
  exact Pipeline.Window.rect_emb_val win0_2 t y a

/-- Reading the input block at point t, for ANY contents `A` of the transposed-input array: its entry (k, l) is `A`'s
    entry (k, b), where b is the block's lane offset plus l. -/
theorem read0 (A : S12x1048576.Idx → EReal) (t : Fin cfg0.N) (k : Fin 12) (l : Fin 512) (b : Fin 1048576)
    (h0 : win0_0.index t (0 : Fin 2) = 0) (hb : b.val = win0_0.index t (1 : Fin 2) * 512 + l.val) :
    ((cfg0.win 0).blk t).view.read (Elt Ideal) A (ix2 k l) = A (ix2 k b) := by
  show A (((cfg0.win 0).blk t).view.emb (ix2 k l)) = _
  refine congrArg A (funext fun a => Fin.ext ?_)
  match a with
  | ⟨0, _⟩ =>
    have h := emb0_val t (ix2 k l) (0 : Fin 2)
    show ((((cfg0.win 0).blk t).view.emb (ix2 k l)) (0 : Fin 2) : Nat) = k.val
    rw [h]
    show win0_0.index t (0 : Fin 2) * 12 + k.val = k.val
    omega
  | ⟨1, _⟩ =>
    have h := emb0_val t (ix2 k l) (1 : Fin 2)
    show ((((cfg0.win 0).blk t).view.emb (ix2 k l)) (1 : Fin 2) : Nat) = b.val
    rw [h]
    show win0_0.index t (1 : Fin 2) * 512 + l.val = b.val
    omega

/-- Reading the parameter table's block (the whole table), for ANY contents `B` of it: entry (h, z) is `B`'s entry (h, z). -/
theorem read1 (B : S10x15.Idx → EReal) (t : Fin cfg0.N) (h : Fin 10) (z : Fin 15)
    (h0 : win0_1.index t (0 : Fin 2) = 0) (h1 : win0_1.index t (1 : Fin 2) = 0) :
    ((cfg0.win 1).blk t).view.read (Elt Ideal) B (ix2 h z) = B (ix2 h z) := by
  show B (((cfg0.win 1).blk t).view.emb (ix2 h z)) = _
  refine congrArg B (funext fun a => Fin.ext ?_)
  match a with
  | ⟨0, _⟩ => show win0_1.index t (0 : Fin 2) * 10 + 1 * h.val = h.val; omega
  | ⟨1, _⟩ => show win0_1.index t (1 : Fin 2) * 15 + 1 * z.val = z.val; omega

/-- What grid point t writes back is block t of `arr` of the arrays as the region finds them. -/
theorem flushed_eq (t : Fin cfg0.N) :
    (dats m 0 c).flushed 2 t = ((cfg0.win 2).blk t).view.read (Elt Ideal) (arr (V m c main_v15) (V m c main_v12)) := by
  show (cfg0.win 2).cut (grid0.coords t) ((dats m 0 c).after 2 t) = _
  rw [after0_2]
  obtain ⟨e00, e01, e10, e11, e20, e21⟩ := idx_facts t
  funext j
  show Gen.out0_2 (F := Ideal) (iblk m c 0 t) (iblk m c 1 t) j
    = arr (V m c main_v15) (V m c main_v12) (((cfg0.win 2).blk t).view.emb j)
  refine (out_at (iblk m c 0 t) (iblk m c 1 t) j).trans ?_
  have hb : ((((cfg0.win 2).blk t).view.emb j) (1 : Fin 2) : Nat) = win0_0.index t (1 : Fin 2) * 512 + (j 1).val := by
    rw [emb2_val t j (1 : Fin 2)]
    show win0_2.index t (1 : Fin 2) * 512 + (j 1).val = _
    omega
  have r0 : ∀ k : Fin 12, iblk m c 0 t (ix2 k (j 1))
      = V m c main_v15 (ix2 k ((((cfg0.win 2).blk t).view.emb j) 1)) :=
    fun k => read0 (V m c main_v15) t k (j 1) ((((cfg0.win 2).blk t).view.emb j) 1) e00 hb
  have r1 : ∀ (h : Fin 10) (z : Fin 15), iblk m c 1 t (ix2 h z) = V m c main_v12 (ix2 h z) :=
    fun h z => read1 (V m c main_v12) t h z e10 e11
  simp only [r0, r1]
  rfl

/-- An index of the output array is in point t's block iff each coordinate is in the block's range on its axis. -/
theorem mem_blk (t : Fin cfg0.N) (i : S1x1048576.Idx) :
    i ∈ ((cfg0.win 2).blk t).view.set ↔ ∀ a : Fin 2, win0_2.index t a * S1x512.size a ≤ (i a).val
      ∧ (i a).val < win0_2.index t a * S1x512.size a + S1x512.size a := by
  show i ∈ ((View.whole main_v16).slice (win0_2.rect t)).set ↔ _
  rw [View.set_slice_whole, Rect.mem_set_unit]
  exact Iff.rfl

/-- The 2048 blocks tile the output: lane b lies in the block of point b / 512. -/
theorem cover (i : S1x1048576.Idx) :
    ∃ t : Fin cfg0.N, (cfg0.win 2).flush t = true ∧ i ∈ ((cfg0.win 2).blk t).view.set := by
  have hi0 : (i 0).val < 1 := (i 0).isLt
  have hi1 : (i 1).val < 1048576 := (i 1).isLt
  have hN : cfg0.N = 2048 := N_0
  have hlt : (i 1).val / 512 < cfg0.N := by rw [hN]; omega
  obtain ⟨t, ht'⟩ : ∃ t : Fin cfg0.N, t.val = (i 1).val / 512 := ⟨⟨(i 1).val / 512, hlt⟩, rfl⟩
  obtain ⟨-, -, -, -, e20, e21⟩ := idx_facts t
  refine ⟨t, flush0_2 t, ?_⟩
  rw [mem_blk]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 512 ≤ (i 1).val ∧ (i 1).val < win0_2.index t (1 : Fin 2) * 512 + 512; omega

/-- The output array after the run. -/
theorem final : (dats m 0 c).arrAt 2 cfg0.N = arr (V m c main_v15) (V m c main_v12) :=
  (dats m 0 c).arrAt_eq_of_cover 2 _ (fun t _ => flushed_eq m c t) (cover)

end Cert.ReferenceIdeal.Array

end
-- ==== Proof.REntry.lean ====
/-
  The arrays the reference's kernel is launched on, as the region finds them, are the functions of the argument arrays
  named in HostTerms: the transposed input and the packed parameter table.
-/
import proofs.«107644_g2000702263430979_pallasbulk_829_7_alg».proof.Proof.Gen.ReferenceIdeal.Frame
import proofs.«107644_g2000702263430979_pallasbulk_829_7_alg».proof.Proof.HostTerms
import Idealize.ShloMosaic.Lib.StableHlo.Run

noncomputable section

namespace Cert.ReferenceIdeal.Entry

open Idealize.ShloMosaic Idealize.ShloMosaic.TcCoe Idealize.SL.Sem Cert.ReferenceIdeal Cert.ReferenceIdeal.Gen

variable (m : (ℓ : Loc nD τ sig) → Buf (Elt Ideal) ℓ) (c : Dev nD)

set_option maxHeartbeats 4000000 in
/-- Window 0's array: the transposed input. -/
theorem V_xt : (V (F := Ideal) m c main_v15 : S12x1048576.Idx → EReal)
    = Cert.HostTerms.R.xt (m ((c : Thread nD τ).loc main_arg0)) := by
  dsimp only [Gen.V, Gen.V0]
  simp only [Gen.hostOps0, List.flatten_cons, List.flatten_nil, List.append_nil, List.cons_append, List.nil_append]
  after_results
  rfl

set_option maxHeartbeats 4000000 in
/-- Window 1's array: the packed parameter table. -/
theorem V_params : (V (F := Ideal) m c main_v12 : S10x15.Idx → EReal)
    = Cert.HostTerms.R.params (m ((c : Thread nD τ).loc main_arg1)) (m ((c : Thread nD τ).loc main_arg2))
        (m ((c : Thread nD τ).loc main_arg3)) (m ((c : Thread nD τ).loc main_arg4)) := by
  dsimp only [Gen.V, Gen.V0]
  simp only [Gen.hostOps0, List.flatten_cons, List.flatten_nil, List.append_nil, List.cons_append, List.nil_append]
  after_results
  rfl

end Cert.ReferenceIdeal.Entry

end
-- ==== Proof.RParams.lean ====
import proofs.«107644_g2000702263430979_pallasbulk_829_7_alg».proof.Proof.HostTerms
import proofs.«107644_g2000702263430979_pallasbulk_829_7_alg».proof.Proof.LibScatterAt
import Idealize.ShloMosaic.Lib.Pipeline.Value
import Idealize.ShloMosaic.Lib.ValueLayout
noncomputable section
namespace Cert.HostTerms.R
open Idealize.ShloMosaic Idealize.ShloMosaic.LibScatterAt Cert.ReferenceIdeal Cert.ReferenceIdeal.Facts₀
open Idealize.ShloMosaic.ValueIdx

variable (w1 : FVec Ideal S10x12 .f32) (b1 : FVec Ideal S10 .f32) (w2 : FVec Ideal S1x10 .f32) (b2 : FVec Ideal S1 .f32)

/-! ## Where each scatter's updates land

For the literal dimension records and literal start vectors of the four scatters, the window's start and the window
coordinate are computed axis by axis, and from them the operand index an update index lands at, in closed form. -/

/-- The index vector of a column scatter: the one-entry vector holding `c`. -/
private abbrev colIdx (c : BitVec 32) : IVec S1 32 := broadcastInDim S1 ![] bcast_S_S1 (constantI S_ 32 c)

/-- The index vector of the last scatter: the two-entry vector (0, 14). -/
private abbrev cornerIdx : IVec S2 32 :=
  concatenate S2 0 [⟨S1, colIdx 0#32⟩, ⟨S1, colIdx 14#32⟩] concatenates_S1_S1_S2_d0

/-- Two rank-2 indices built from coordinates are equal only if their coordinates are. -/
private theorem ix2_inj {n0 n1 : Nat} {a a' : Fin n0} {b b' : Fin n1} (h : ix2 a b = ix2 a' b') : a = a' ∧ b = b' :=
  have h0 : a = a' := congrFun h (⟨0, Nat.zero_lt_two⟩ : Fin 2)
  have h1 : b = b' := congrFun h (⟨1, Nat.one_lt_two⟩ : Fin 2)
  ⟨h0, h1⟩

/-- The shape [1] has one index. -/
private theorem idx1_one (x : S1.Idx) : x = ix1 (0 : Fin 1) := by
  have h : (x 0).val < 1 := (x 0).isLt
  rw [eq_ix1 x]
  exact congrArg ix1 (Fin.ext (by show (x 0).val = 0; omega))

/-! ### The whole-window scatter (the weights of the first layer): start (0, c), window coordinate the update index -/

private theorem start1 (c : BitVec 32) (u : S10x12.Idx) (a : Fin 2) :
    scatter_S10x15_S1_S10x12_01_n_1_0.start u (colIdx c) a = if a = 1 then c.toInt else 0 := by
  fin_cases a
  · rfl
  · rfl

private theorem window1 (u : S10x12.Idx) (a : Fin 2) :
    scatter_S10x15_S1_S10x12_01_n_1_0.window u a = (u a).val := by
  fin_cases a
  · rfl
  · rfl

/-- Update index (r, q) of the whole-window scatter at column 0 lands at (r, q). -/
private theorem res1 (u : S10x12.Idx) :
    scatter_S10x15_S1_S10x12_01_n_1_0.resultIdx? u (colIdx 0#32)
      = some (ix2 (u 0) (Fin.castLE (by decide : 12 ≤ 15) (u 1))) := by
  have h0 : (u 0).val < 10 := (u 0).isLt
  have h1 : (u 1).val < 12 := (u 1).isLt
  have hz : (0#32 : BitVec 32).toInt = 0 := by decide
  have hb : ∀ a, 0 ≤ scatter_S10x15_S1_S10x12_01_n_1_0.start u (colIdx 0#32) a + scatter_S10x15_S1_S10x12_01_n_1_0.window u a ∧
      scatter_S10x15_S1_S10x12_01_n_1_0.start u (colIdx 0#32) a + scatter_S10x15_S1_S10x12_01_n_1_0.window u a < S10x15.size a := by
    intro a
    rw [start1, window1]
    fin_cases a
    · show (0 : Int) ≤ 0 + ((u 0).val : Int) ∧ 0 + ((u 0).val : Int) < (10 : Nat)
      omega
    · show (0 : Int) ≤ (0#32 : BitVec 32).toInt + ((u 1).val : Int) ∧ (0#32 : BitVec 32).toInt + ((u 1).val : Int) < (15 : Nat)
      omega
  unfold ScatterDims.resultIdx?
  rw [dif_pos hb]
  congr 1
  funext a
  apply Fin.ext
  show (scatter_S10x15_S1_S10x12_01_n_1_0.start u (colIdx 0#32) a + scatter_S10x15_S1_S10x12_01_n_1_0.window u a).toNat = _
  rw [start1, window1]
  fin_cases a
  · show ((0 : Int) + ((u 0).val : Int)).toNat = (u 0).val
    omega
  · show ((0#32 : BitVec 32).toInt + ((u 1).val : Int)).toNat = (u 1).val
    omega

/-! ### The column scatter (the biases, the second layer's weights): start (0, c), window coordinate (the update index, 0) -/

private theorem start2 (c : BitVec 32) (u : S10.Idx) (a : Fin 2) :
    scatter_S10x15_S1_S10_0_1_1_0.start u (colIdx c) a = if a = 1 then c.toInt else 0 := by
  fin_cases a
  · rfl
  · rfl

private theorem window2 (u : S10.Idx) (a : Fin 2) :
    scatter_S10x15_S1_S10_0_1_1_0.window u a = if a = 0 then (u 0).val else 0 := by
  fin_cases a
  · rfl
  · rfl

/-- Update index r of the column scatter at column n lands at (r, n). -/
private theorem res2 (c : BitVec 32) (n : Nat) (hn : n < 15) (hc : c.toInt = (n : Int)) (u : S10.Idx) :
    scatter_S10x15_S1_S10_0_1_1_0.resultIdx? u (colIdx c) = some (ix2 (u 0) (⟨n, hn⟩ : Fin 15)) := by
  have h0 : (u 0).val < 10 := (u 0).isLt
  have hb : ∀ a, 0 ≤ scatter_S10x15_S1_S10_0_1_1_0.start u (colIdx c) a + scatter_S10x15_S1_S10_0_1_1_0.window u a ∧
      scatter_S10x15_S1_S10_0_1_1_0.start u (colIdx c) a + scatter_S10x15_S1_S10_0_1_1_0.window u a < S10x15.size a := by
    intro a
    rw [start2, window2]
    fin_cases a
    · show (0 : Int) ≤ 0 + ((u 0).val : Int) ∧ 0 + ((u 0).val : Int) < (10 : Nat)
      omega
    · show (0 : Int) ≤ c.toInt + ((0 : Nat) : Int) ∧ c.toInt + ((0 : Nat) : Int) < (15 : Nat)
      omega
  unfold ScatterDims.resultIdx?
  rw [dif_pos hb]
  congr 1
  funext a
  apply Fin.ext
  show (scatter_S10x15_S1_S10_0_1_1_0.start u (colIdx c) a + scatter_S10x15_S1_S10_0_1_1_0.window u a).toNat = _
  rw [start2, window2]
  fin_cases a
  · show ((0 : Int) + ((u 0).val : Int)).toNat = (u 0).val
    omega
  · show (c.toInt + ((0 : Nat) : Int)).toNat = n
    omega

/-! ### The single-entry scatter (the second layer's bias): start (0, 14), no window -/

private theorem start4 (u : S_.Idx) (a : Fin 2) :
    scatter_S10x15_S2_S__n_01_01_0.start u cornerIdx a = if a = 1 then 14 else 0 := by
  fin_cases a
  · rfl
  · rfl

private theorem window4 (u : S_.Idx) (a : Fin 2) : scatter_S10x15_S2_S__n_01_01_0.window u a = 0 := by
  fin_cases a
  · rfl
  · rfl

/-- The one update index of the single-entry scatter lands at (0, 14). -/
private theorem res4 (u : S_.Idx) :
    scatter_S10x15_S2_S__n_01_01_0.resultIdx? u cornerIdx = some (ix2 (0 : Fin 10) (⟨14, by decide⟩ : Fin 15)) := by
  have hb : ∀ a, 0 ≤ scatter_S10x15_S2_S__n_01_01_0.start u cornerIdx a + scatter_S10x15_S2_S__n_01_01_0.window u a ∧
      scatter_S10x15_S2_S__n_01_01_0.start u cornerIdx a + scatter_S10x15_S2_S__n_01_01_0.window u a < S10x15.size a := by
    intro a
    rw [start4, window4]
    fin_cases a
    · show (0 : Int) ≤ 0 + ((0 : Nat) : Int) ∧ 0 + ((0 : Nat) : Int) < (10 : Nat)
      omega
    · show (0 : Int) ≤ 14 + ((0 : Nat) : Int) ∧ 14 + ((0 : Nat) : Int) < (15 : Nat)
      omega
  unfold ScatterDims.resultIdx?
  rw [dif_pos hb]
  congr 1
  funext a
  apply Fin.ext
  show (scatter_S10x15_S2_S__n_01_01_0.start u cornerIdx a + scatter_S10x15_S2_S__n_01_01_0.window u a).toNat = _
  rw [start4, window4]
  fin_cases a
  · show ((0 : Int) + ((0 : Nat) : Int)).toNat = 0
    omega
  · show ((14 : Int) + ((0 : Nat) : Int)).toNat = 14
    omega

/-! ## The table read entry by entry

Each entry is written by at most one of the four scatters: the later scatters that miss it are peeled off, and the one
that writes it is read at the single update index landing there. -/

/-- Columns 0..11 of the table hold the first layer's weights. -/
theorem params_w1 (j : Fin 10) (k : Fin 12) :
    params w1 b1 w2 b2 (ix2 j (Fin.castLE (by decide : 12 ≤ 15) k)) = w1 (ix2 j k) := by
  have hk : k.val < 12 := k.isLt
  unfold params
  refine (scatter_set_miss _ _ _ _ _ ?_).trans ?_
  · intro u h
    rw [res4] at h
    have e : 14 = k.val := congrArg Fin.val (ix2_inj (Option.some.inj h)).2
    omega
  refine (scatter_set_miss _ _ _ _ _ ?_).trans ?_
  · intro u h
    rw [res2 13#32 13 (by decide) (by decide)] at h
    have e : 13 = k.val := congrArg Fin.val (ix2_inj (Option.some.inj h)).2
    omega
  refine (scatter_set_miss _ _ _ _ _ ?_).trans ?_
  · intro u h
    rw [res2 12#32 12 (by decide) (by decide)] at h
    have e : 12 = k.val := congrArg Fin.val (ix2_inj (Option.some.inj h)).2
    omega
  refine scatter_set_hit _ _ _ _ _ (ix2 j k) ?_ ?_
  · exact res1 (ix2 j k)
  · intro u h
    rw [res1] at h
    obtain ⟨e0, e1⟩ := ix2_inj (Option.some.inj h)
    have e1v : (Fin.castLE (by decide : 12 ≤ 15) (u 1)).val = (Fin.castLE (by decide : 12 ≤ 15) k).val := congrArg Fin.val e1
    have e1' : u 1 = k := Fin.ext e1v
    exact (eq_ix2 u).trans (congrArg₂ (ix2 (n0 := 10) (n1 := 12)) e0 e1')

/-- Column 12 holds the first layer's biases. -/
theorem params_b1 (j : Fin 10) : params w1 b1 w2 b2 (ix2 j (⟨12, by decide⟩ : Fin 15)) = b1 (ix1 j) := by
  unfold params
  refine (scatter_set_miss _ _ _ _ _ ?_).trans ?_
  · intro u h
    rw [res4] at h
    have e : 14 = 12 := congrArg Fin.val (ix2_inj (Option.some.inj h)).2
    omega
  refine (scatter_set_miss _ _ _ _ _ ?_).trans ?_
  · intro u h
    rw [res2 13#32 13 (by decide) (by decide)] at h
    have e : 13 = 12 := congrArg Fin.val (ix2_inj (Option.some.inj h)).2
    omega
  refine scatter_set_hit _ _ _ _ _ (ix1 j) ?_ ?_
  · exact res2 12#32 12 (by decide) (by decide) (ix1 j)
  · intro u h
    rw [res2 12#32 12 (by decide) (by decide)] at h
    exact (eq_ix1 u).trans (congrArg (ix1 (n := 10)) (ix2_inj (Option.some.inj h)).1)

/-- Column 13 holds the second layer's weights. -/
theorem params_w2 (j : Fin 10) : params w1 b1 w2 b2 (ix2 j (⟨13, by decide⟩ : Fin 15)) = w2 (ix2 (0 : Fin 1) j) := by
  unfold params
  refine (scatter_set_miss _ _ _ _ _ ?_).trans ?_
  · intro u h
    rw [res4] at h
    have e : 14 = 13 := congrArg Fin.val (ix2_inj (Option.some.inj h)).2
    omega
  refine (scatter_set_hit _ _ _ _ _ (ix1 j) ?_ ?_).trans ?_
  · exact res2 13#32 13 (by decide) (by decide) (ix1 j)
  · intro u h
    rw [res2 13#32 13 (by decide) (by decide)] at h
    exact (eq_ix1 u).trans (congrArg (ix1 (n := 10)) (ix2_inj (Option.some.inj h)).1)
  exact shapeCast_1a_a_apply w2 shapeCasts_S1x10_S10 j

/-- Entry (0, 14) holds the second layer's bias. -/
theorem params_b2 : params w1 b1 w2 b2 (ix2 (0 : Fin 10) (⟨14, by decide⟩ : Fin 15)) = b2 (ix1 (0 : Fin 1)) := by
  unfold params
  refine (scatter_set_hit _ _ _ _ _ ix0 ?_ ?_).trans ?_
  · exact res4 ix0
  · intro u _
    exact eq_ix0 u
  exact congrArg b2 (idx1_one _)

end Cert.HostTerms.R
end
-- ==== Proof.RXt.lean ====
/-
  The reference's transposed input at an entry.

  The array [12, 1048576] is one write of the whole transposed input over zeros, with an empty index vector:
  no axis takes a start from it and no axis is inserted, so update index j lands at j itself. Entry (k, b) is
  therefore written exactly once, by update index (k, b), and holds the transpose there: x (b, k).
-/
import proofs.«107644_g2000702263430979_pallasbulk_829_7_alg».proof.Proof.HostTerms
import proofs.«107644_g2000702263430979_pallasbulk_829_7_alg».proof.Proof.LibScatterAt
import Idealize.ShloMosaic.Lib.Pipeline.Value
import Idealize.ShloMosaic.Lib.ValueLayout
noncomputable section
namespace Cert.HostTerms.R
open Idealize.ShloMosaic Idealize.ShloMosaic.LibScatterAt Cert.ReferenceIdeal Cert.ReferenceIdeal.Facts₀

open Idealize.ShloMosaic.ValueIdx

namespace XtWrite

/-- No operand axis takes a start from the (empty) index vector: the window starts at 0 on both axes. -/
theorem start_eq (j : S12x1048576.Idx) (a : Fin 2) :
    scatter_S12x1048576_S0_S12x1048576_01_n_n_0.start j (emptyVec S0 hz_S0 : IVec S0 32) a = 0 := rfl

/-- No axis is inserted: the window coordinate on axis `a` is the update index's own coordinate. -/
theorem window_eq (j : S12x1048576.Idx) (a : Fin 2) :
    scatter_S12x1048576_S0_S12x1048576_01_n_n_0.window j a = (j a).val := by
  match a with
  | ⟨0, _⟩ => rfl
  | ⟨1, _⟩ => rfl

/-- Update index `j` lands at `j` itself. -/
theorem resultIdx_eq (j : S12x1048576.Idx) :
    scatter_S12x1048576_S0_S12x1048576_01_n_n_0.resultIdx? j (emptyVec S0 hz_S0 : IVec S0 32) = some j := by
  have h : ∀ a : Fin 2,
      0 ≤ scatter_S12x1048576_S0_S12x1048576_01_n_n_0.start j (emptyVec S0 hz_S0 : IVec S0 32) a
          + scatter_S12x1048576_S0_S12x1048576_01_n_n_0.window j a ∧
      scatter_S12x1048576_S0_S12x1048576_01_n_n_0.start j (emptyVec S0 hz_S0 : IVec S0 32) a
          + scatter_S12x1048576_S0_S12x1048576_01_n_n_0.window j a < S12x1048576.size a := by
    intro a
    rw [start_eq, window_eq]
    have := (j a).isLt
    omega
  unfold ScatterDims.resultIdx?
  rw [dif_pos h]
  congr 1
  funext a
  apply Fin.ext
  show (scatter_S12x1048576_S0_S12x1048576_01_n_n_0.start j (emptyVec S0 hz_S0 : IVec S0 32) a
    + ((scatter_S12x1048576_S0_S12x1048576_01_n_n_0.window j a : Nat) : Int)).toNat = (j a).val
  rw [start_eq, window_eq]
  omega

end XtWrite

open XtWrite

/-- The transposed input: entry (k, b) is x (b, k). -/
theorem xt_apply (x : FVec Ideal S1048576x12 .f32) (k : Fin 12) (b : Fin 1048576) :
    xt x (ix2 k b) = x (ix2 b k) := by
  unfold xt
  -- every update index lands at itself, so entry (k, b) is written once, by update index (k, b)
  rw [scatter_set_hit _ _ _ _ _ (ix2 k b) (resultIdx_eq _) (fun j hj => by
    rw [resultIdx_eq] at hj
    exact Option.some.inj hj)]
  exact transpose_ix2_apply x transposes_S1048576x12_S12x1048576_1_0 k b

end Cert.HostTerms.R
end
-- ==== Proof.RValue.lean ====
/-
  The reference's result is the perceptron.

  The reference kernel's output array [1, 1048576], computed from the transposed input and the packed parameter table,
  holds at (0, b) the perceptron at batch row b: the table's columns are the first layer's weights and biases and the
  second layer's weights and bias, and the transposed input at (k, b) is the input at (b, k). The final transpose to
  [1048576, 1] reads entry (b, 0) at (0, b).
-/
import proofs.«107644_g2000702263430979_pallasbulk_829_7_alg».proof.Proof.RArray
import proofs.«107644_g2000702263430979_pallasbulk_829_7_alg».proof.Proof.RParams
import proofs.«107644_g2000702263430979_pallasbulk_829_7_alg».proof.Proof.RXt
import proofs.«107644_g2000702263430979_pallasbulk_829_7_alg».proof.Proof.Result
import Idealize.ShloMosaic.Lib.ValueLayout
import Idealize.ShloMosaic.Lib.Pipeline.Value

noncomputable section

namespace Cert.ReferenceIdeal.Bridge

open Idealize.ShloMosaic Idealize.ShloMosaic.ValueIdx Cert.ReferenceIdeal Cert.ReferenceIdeal.Facts₀
open Cert.HostTerms

variable (X : FVec Ideal S1048576x12 .f32) (W1 : FVec Ideal S10x12 .f32) (B1 : FVec Ideal S10 .f32)
  (W2 : FVec Ideal S1x10 .f32) (B2 : FVec Ideal S1 .f32)

/-- Entry (0, b) of the reference kernel's output array is the perceptron at batch row b. -/
theorem arr_eq (b : Fin 1048576) :
    Cert.ReferenceIdeal.Array.arr (R.xt X) (R.params W1 B1 W2 B2) (ix2 (0 : Fin 1) b)
      = Cert.Spec.mlp Cert.Spec.T (fun b k => X (ix2 b k)) (fun j k => W1 (ix2 j k)) (fun j => B1 (ix1 j))
          (fun j => W2 (ix2 (0 : Fin 1) j)) (B2 (ix1 (0 : Fin 1))) b := by
  show (∑ j : Fin 10,
      Cert.Spec.T ((∑ k : Fin 12, R.params W1 B1 W2 B2 (ix2 j (Fin.castLE (by decide : 12 ≤ 15) k)) * R.xt X (ix2 k b))
          + R.params W1 B1 W2 B2 (ix2 j (⟨12, by decide⟩ : Fin 15)))
        * R.params W1 B1 W2 B2 (ix2 j (⟨13, by decide⟩ : Fin 15)))
    + R.params W1 B1 W2 B2 (ix2 (0 : Fin 10) (⟨14, by decide⟩ : Fin 15)) = _
  simp only [R.params_w1, R.params_b1, R.params_w2, R.params_b2, R.xt_apply]
  rfl

/-- The reference's result array, the output array transposed to [1048576, 1], is the perceptron row by row. -/
theorem result_eq :
    transpose S1048576x1 [1, 0] (Cert.ReferenceIdeal.Array.arr (R.xt X) (R.params W1 B1 W2 B2)) transposes_S1x1048576_S1048576x1_1_0
      = Cert.Spec.G X W1 B1 W2 B2 := by
  funext i
  have hi0 : (i 0).val < 1048576 := (i 0).isLt
  have h1 : (i 1).val = 0 := by have := (i 1).isLt; simp at this; omega
  -- entry (b, 0) of the transpose is entry (0, b) of the output array
  refine (transpose_apply _ _ _ i (ix2 (0 : Fin 1) (⟨(i 0).val, hi0⟩ : Fin 1048576)) ?_).trans ?_
  · intro b
    match b with
    | ⟨0, _⟩ => rfl
    | ⟨1, _⟩ => exact h1.symm
  · rw [arr_eq]
    rfl

end Cert.ReferenceIdeal.Bridge

end
-- ==== Proof.RRun.lean ====
/-
  The reference's run, read: every weakly fair execution terminates, the result array ends holding the perceptron of
  the argument arrays row by row, and the argument arrays end unchanged.

  After the region the program transposes the kernel's [1, 1048576] output array to [1048576, 1]; the output array is
  the function `arr` of the two arrays the kernel was launched on, and those are the host prefix's functions of the
  arguments.
-/
import proofs.«107644_g2000702263430979_pallasbulk_829_7_alg».proof.Proof.RArray
import proofs.«107644_g2000702263430979_pallasbulk_829_7_alg».proof.Proof.REntry
import proofs.«107644_g2000702263430979_pallasbulk_829_7_alg».proof.Proof.RValue
import Idealize.ShloMosaic.Lib.StableHlo.Run

noncomputable section

namespace Cert.ReferenceIdeal.Run

open Idealize.ShloMosaic Idealize.ShloMosaic.ValueIdx Idealize.ShloMosaic.TcCoe Idealize.SL.Sem Cert.ReferenceIdeal Cert.ReferenceIdeal.Gen

variable (m : (ℓ : Loc nD τ sig) → Buf (Elt Ideal) ℓ) (ρ : Dev nD → PrngReg)

/-- What the transpose after the region leaves in the result buffer: the output array, transposed. -/
theorem tail (c : Dev nD) :
    (Pipeline.afterTail₀ cfgs (dats m) 0 (V0 m) [hostOps1] c main_v17 : S1048576x1.Idx → EReal)
      = transpose S1048576x1 [1, 0]
          (Cert.ReferenceIdeal.Array.arr (V m c main_v15) (V m c main_v12))
          Cert.ReferenceIdeal.Facts₀.transposes_S1x1048576_S1048576x1_1_0 := by
  have e : Pipeline.withArrays (cfgs 0).spec c (V0 m c) (fun w => (dats m 0 c).arrAt w (cfgs 0).N) (Proc.devRef .tc main_v16)
      = Cert.ReferenceIdeal.Array.arr (V m c main_v15) (V m c main_v12) :=
    (Pipeline.withArrays_arr spec0 launch0.win.arr_inj c _ _ 2).trans (Cert.ReferenceIdeal.Array.final m c)
  unfold Pipeline.afterTail₀
  show StableHlo.after hostOps1 _ (Proc.devRef .tc main_v17) = _
  after_results
  rw [e]

/-- The result array after the run is the perceptron of the argument arrays, and the arguments are unchanged. -/
theorem run : θ_run defs (onTc (τ := τ) (main (F := Ideal))) ⟨m, fun _ => 0, ρ⟩ (fun r => ∀ c : Dev nD,
      r.2.mem ((c.tc : Thread nD τ).loc main_v17)
        = Cert.Spec.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans ((tail m c).trans (by
        rw [Cert.ReferenceIdeal.Entry.V_xt, Cert.ReferenceIdeal.Entry.V_params]
        exact Cert.ReferenceIdeal.Bridge.result_eq _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Run

end
-- ==== Proof.lean ====
/-
  The certificate: a packed two-layer perceptron kernel against its lane-dense reference.

  Both programs compute, for every batch row b of x : [1048576, 12],

      out b = (∑ j < 10, tanh ((∑ k < 12, w1 j k · x b k) + b1 j) · w2 j) + b2.

  The kernel views x as [32768, 384] (32 batch rows per row), multiplies by the block-diagonal weights
  kron(I₃₂, w1ᵀ) and kron(I₃₂, w2ᵀ) with the biases in one row, and reshapes the [32768, 32] result back. The
  reference transposes x, runs a kernel over lane blocks of 512 with the parameters packed in one [10, 15] table, and
  transposes back. Over the extended reals the off-block products are 0 · a = 0 for every a, and + and · are
  commutative and associative, so the two results are the same function of the arguments and the precondition is
  not used by the value claim.

  The frames are the generated ones; the idealization rewrote nothing, so `preserves` is `True`. The value claim posts
  both runs at the one function `Cert.Spec.G` of the argument arrays (Spec.lean, Result.lean): the kernel side through
  HostTerms / KEntry (the arrays the kernel is launched on), KBody (the body at an index), KArray (blocks to the whole
  array), KKron / KAux / Algebra / KValue (the block-diagonal sums collapse) and KRun; the reference side through
  REntry, RBody, RArray, RParams / RXt / RValue and RRun.
-/
import proofs.«107644_g2000702263430979_pallasbulk_829_7_alg».proof.Defs
import proofs.«107644_g2000702263430979_pallasbulk_829_7_alg».proof.Proof.Gen.Kernel
import proofs.«107644_g2000702263430979_pallasbulk_829_7_alg».proof.Proof.Gen.Kernel.Frame
import proofs.«107644_g2000702263430979_pallasbulk_829_7_alg».proof.Proof.Gen.KernelIdeal
import proofs.«107644_g2000702263430979_pallasbulk_829_7_alg».proof.Proof.Gen.KernelIdeal.Frame
import proofs.«107644_g2000702263430979_pallasbulk_829_7_alg».proof.Proof.Gen.ReferenceIdeal
import proofs.«107644_g2000702263430979_pallasbulk_829_7_alg».proof.Proof.Gen.ReferenceIdeal.Frame
import proofs.«107644_g2000702263430979_pallasbulk_829_7_alg».proof.Proof.Gen.Pre_finite_inputs
import proofs.«107644_g2000702263430979_pallasbulk_829_7_alg».proof.Proof.KRun
import proofs.«107644_g2000702263430979_pallasbulk_829_7_alg».proof.Proof.RRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing: the idealization is the program's own text read over the extended reals. -/
theorem preserves : Cert.preserves_Kernel_KernelIdeal := trivial

/-- Both runs end with the result array at the perceptron of the (agreeing) argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨?_, (h c).2⟩) (Cert.ReferenceIdeal.Run.run m' ρ')
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
